-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x240x640 : Shape := ⟨3, ![4, 240, 640]⟩
abbrev S4x80x640 : Shape := ⟨3, ![4, 80, 640]⟩
abbrev S640x1024 : Shape := ⟨2, ![640, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S4x240x640 : S_.BroadcastsInDim S4x240x640 (![] : Fin 0 → Fin S4x240x640.rank)
  reducesTo_S4x240x640_S_d0_1_2 : S4x240x640.ReducesTo [0, 1, 2] S_
  h_S_ : 0 < S_.numel
  bcast_S_S4x80x640 : S_.BroadcastsInDim S4x80x640 (![] : Fin 0 → Fin S4x80x640.rank)
  reducesTo_S4x80x640_S_d0_1_2 : S4x80x640.ReducesTo [0, 1, 2] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S640x1024 .f32) (main_arg5 : FVec F S1024 .f32) (main_arg6 : FVec F S1024x512 .f32) (main_arg7 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S4x240x640 .f32) (main_arg1 : FVec F S4x80x640 .f32) (main_arg2 : FVec F S640x1024 .f32) (main_arg3 : FVec F S1024 .f32) (main_arg4 : FVec F S640x1024 .f32) (main_arg5 : FVec F S1024 .f32) (main_arg6 : FVec F S1024x512 .f32) (main_arg7 : FVec F S512 .f32) : IVec S_ 1 :=
  let main_v0 : FVec F S4x240x640 .f32 := Host.absf main_arg0
  let main_cst : FVec F S_ .f32 := constant S_ .f32 0x7F800000#32
  let main_v1 : FVec F S4x240x640 .f32 := broadcastInDim S4x240x640 ![] bcast_S_S4x240x640 main_cst
  let main_v2 : IVec S4x240x640 1 := cmpf .olt main_v0 main_v1
  let main_c : IVec S_ 1 := constantI S_ 1 1#1
  let main_v3 : IVec S_ 1 := (fun x v => Host.reduce IntOp.andi x v reducesTo_S4x240x640_S_d0_1_2 h_S_) main_v2 main_c
  let main_v4 : FVec F S4x80x640 .f32 := Host.absf main_arg1
  let main_cst_0 : FVec F S_ .f32 := constant S_ .f32 0x7F800000#32
  let main_v5 : FVec F S4x80x640 .f32 := broadcastInDim S4x80x640 ![] bcast_S_S4x80x640 main_cst_0
  let main_v6 : IVec S4x80x640 1 := cmpf .olt main_v4 main_v5
  let main_c_1 : IVec S_ 1 := constantI S_ 1 1#1
  let main_v7 : IVec S_ 1 := (fun x v => Host.reduce IntOp.andi x v reducesTo_S4x80x640_S_d0_1_2 h_S_) main_v6 main_c_1
  let main_v8 : IVec S_ 1 := andi main_v3 main_v7
  let main_v9 : FVec F S640x1024 .f32 := Host.absf main_arg2
  let main_cst_2 : FVec F S_ .f32 := constant S_ .f32 0x7F800000#32
  let main_v10 : FVec F S640x1024 .f32 := broadcastInDim S640x1024 ![] bcast_S_S640x1024 main_cst_2
  let main_v11 : IVec S640x1024 1 := cmpf .olt main_v9 main_v10
  let main_c_3 : IVec S_ 1 := constantI S_ 1 1#1
  let main_v12 : IVec S_ 1 := (fun x v => Host.reduce IntOp.andi x v reducesTo_S640x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x240x640 : Shape := ⟨3, ![4, 240, 640]⟩
abbrev S4x80x640 : Shape := ⟨3, ![4, 80, 640]⟩
abbrev S640x1024 : Shape := ⟨2, ![640, 1024]⟩
abbrev S1024 : Shape := ⟨1, ![1024]⟩
abbrev S1024x512 : Shape := ⟨2, ![1024, 512]⟩
abbrev S512 : Shape := ⟨1, ![512]⟩
abbrev S960x640 : Shape := ⟨2, ![960, 640]⟩
abbrev S320x640 : Shape := ⟨2, ![320, 640]⟩
abbrev S960x1024 : Shape := ⟨2, ![960, 1024]⟩
abbrev S1x1024 : Shape := ⟨2, ![1, 1024]⟩
abbrev S320x1024 : Shape := ⟨2, ![320, 1024]⟩
abbrev S4x240x1024 : Shape := ⟨3, ![4, 240, 1024]⟩
abbrev S4x80x1024 : Shape := ⟨3, ![4, 80, 1024]⟩
abbrev S4x240x80x512 : Shape := ⟨4, ![4, 240, 80, 512]⟩
abbrev S1x24x1024 : Shape := ⟨3, ![1, 24, 1024]⟩
abbrev S1x80x1024 : Shape := ⟨3, ![1, 80, 1024]⟩
abbrev S1x24x80x512 : Shape := ⟨4, ![1, 24, 80, 512]⟩
abbrev S24x1024 : Shape := ⟨2, ![24, 1024]⟩
abbrev S80x1024 : Shape := ⟨2, ![80, 1024]⟩
abbrev S24x1x1024 : Shape := ⟨3, ![24, 1, 1024]⟩
abbrev S24x80x1024 : Shape := ⟨3, ![24, 80, 1024]⟩
abbrev S1920x1024 : Shape := ⟨2, ![1920, 1024]⟩
abbrev S1920x512 : Shape := ⟨2, ![1920, 512]⟩
abbrev S24x80x512 : Shape := ⟨3, ![24, 80, 512]⟩
abbrev S1x1x512 : Shape := ⟨3, ![1, 1, 512]⟩

abbrev nBuf : Space → Nat
  | .hbm => 15
  | .vmem => 16
  | .smem => 0
  | _ => 0

abbrev bufTy : (tb : Table) → Fin (tcTables nBuf tb) → BufTy
  | .hbm, ⟨0, _⟩ => ⟨S4x240x640, .f32⟩
  | .hbm, ⟨1, _⟩ => ⟨S4x80x640, .f32⟩
  | .hbm, ⟨2, _⟩ => ⟨S640x1024, .f32⟩
  | .hbm, ⟨3, _⟩ => ⟨S1024, .f32⟩
  | .hbm, ⟨4, _⟩ => ⟨S640x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S960x640, .f32⟩
  | .hbm, ⟨9, _⟩ => ⟨S320x640, .f32⟩
  | .hbm, ⟨10, _⟩ => ⟨S960x1024, .f32⟩
  | .hbm, ⟨11, _⟩ => ⟨S320x1024, .f32⟩
  | .hbm, ⟨12, _⟩ => ⟨S4x240x1024, .f32⟩
  | .hbm, ⟨13, _⟩ => ⟨S4x80x1024, .f32⟩
  | .hbm, ⟨14, _⟩ => ⟨S4x240x80x512, .f32⟩
  | .local _ .vmem, ⟨0, _⟩ => ⟨S960x640, .f32⟩
  | .local _ .vmem, ⟨1, _⟩ => ⟨S640x1024, .f32⟩
  | .local _ .vmem, ⟨2, _⟩ => ⟨S1024, .f32⟩
  | .local _ .vmem, ⟨3, _⟩ => ⟨S960x1024, .f32⟩
  | .local _ .vmem, ⟨4, _⟩ => ⟨S320x640, .f32⟩
  | .local _ .vmem, ⟨5, _⟩ => ⟨S640x1024, .f32⟩
  | .local _ .vmem, ⟨6, _⟩ => ⟨S1024, .f32⟩
  | .local _ .vmem, ⟨7, _⟩ => ⟨S320x1024, .f32⟩
  | .local _ .vmem, ⟨8, _⟩ => ⟨S1x24x1024, .f32⟩
  | .local _ .vmem, ⟨9, _⟩ => ⟨S1x24x1024, .f32⟩
  | .local _ .vmem, ⟨10, _⟩ => ⟨S1x80x1024, .f32⟩
  | .local _ .vmem, ⟨11, _⟩ => ⟨S1x80x1024, .f32⟩
  | .local _ .vmem, ⟨12, _⟩ => ⟨S1024x512, .f32⟩
  | .local _ .vmem, ⟨13, _⟩ => ⟨S512, .f32⟩
  | .local _ .vmem, ⟨14, _⟩ => ⟨S1x24x80x512, .f32⟩
  | .local _ .vmem, ⟨15, _⟩ => ⟨S1x24x80x512, .f32⟩
  | _, _ => ⟨S4x240x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S960x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S960x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S320x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S320x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![4, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x24x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x80x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x24x80x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S4x240x640_S960x640 : S4x240x640.ShapeCasts S960x640
  shapeCasts_S4x80x640_S320x640 : S4x80x640.ShapeCasts S320x640
  inb_S960x640_S960x640_0_0 : ∀ a, (![0, 0] : Fin 2 → Nat) a + S960x640.size a ≤ S960x640.size a
  h_S960x640 : 0 < S960x640.numel
  shapeCasts_S960x640_S960x640 : S960x640.ShapeCasts S960x640
  bitsLt_bf16_f32 : FTy.bits .bf16 < FTy.bits .f32
  inb_S640x1024_S640x1024_0_0 : ∀ a, (![0, 0] : Fin 2 → Nat) a + S640x1024.size a ≤ S640x1024.size a
  h_S640x1024 : 0 < S640x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S960x1024 : S1x1024.Broadcasts S960x1024
  inb_S960x1024_S960x1024_0_0 : ∀ a, (![0, 0] : Fin 2 → Nat) a + S960x1024.size a ≤ S960x1024.size a
  h_S960x1024 : 0 < S960x1024.numel
  inb_S320x640_S320x640_0_0 : ∀ a, (![0, 0] : Fin 2 → Nat) a + S320x640.size a ≤ S320x640.size a
  h_S320x640 : 0 < S320x640.numel
  shapeCasts_S320x640_S320x640 : S320x640.ShapeCasts S320x640
  broadcasts_S1x1024_S320x1024 : S1x1024.Broadcasts S320x1024
  inb_S320x1024_S320x1024_0_0 : ∀ a, (![0, 0] : Fin 2 → Nat) a + S320x1024.size a ≤ S320x1024.size a
  h_S320x1024 : 0 < S320x1024.numel
  shapeCasts_S960x1024_S4x240x1024 : S960x1024.ShapeCasts S4x240x1024
  shapeCasts_S320x1024_S4x80x1024 : S320x1024.ShapeCasts S4x80x1024
  inb_S1x24x1024_S1x24x1024_0_0_0 : ∀ a, (![0, 0, 0] : Fin 3 → Nat) a + S1x24x1024.size a ≤ S1x24x1024.size a
  h_S1x24x1024 : 0 < S1x24x1024.numel
  shapeCasts_S1x24x1024_S24x1024 : S1x24x1024.ShapeCasts S24x1024
  inb_S1x80x1024_S1x80x1024_0_0_0 : ∀ a, (![0, 0, 0] : Fin 3 → Nat) a + S1x80x1024.size a ≤ S1x80x1024.size a
  h_S1x80x1024 : 0 < S1x80x1024.numel
  shapeCasts_S1x80x1024_S80x1024 : S1x80x1024.ShapeCasts S80x1024
  shapeCasts_S24x1024_S24x1x1024 : S24x1024.ShapeCasts S24x1x1024
  shapeCasts_S80x1024_S1x80x1024 : S80x1024.ShapeCasts S1x80x1024
  broadcasts_S24x1x1024_S24x80x1024 : S24x1x1024.Broadcasts S24x80x1024
  broadcasts_S1x80x1024_S24x80x1024 : S1x80x1024.Broadcasts S24x80x1024
  inb_S1024x512_S1024x512_0_0 : ∀ a, (![0, 0] : Fin 2 → Nat) a + S1024x512.size a ≤ S1024x512.size a
  h_S1024x512 : 0 < S1024x512.numel
  shapeCasts_S24x80x1024_S1920x1024 : S24x80x1024.ShapeCasts S1920x1024
  shapeCasts_S1920x512_S24x80x512 : S1920x512.ShapeCasts S24x80x512
  inb_S512_S512_0 : ∀ a, (![0] : Fin 1 → Nat) a + S512.size a ≤ S512.size a
  h_S512 : 0 < S512.numel
  shapeCasts_S512_S1x1x512 : S512.ShapeCasts S1x1x512
  broadcasts_S1x1x512_S24x80x512 : S1x1x512.Broadcasts S24x80x512
  inb_S1x24x80x512_S1x24x80x512_0_0_0_0 : ∀ a, (![0, 0, 0, 0] : Fin 4 → Nat) a + S1x24x80x512.size a ≤ S1x24x80x512.size a
  h_S1x24x80x512 : 0 < S1x24x80x512.numel
  shapeCasts_S1x24x80x512_S24x80x512 : S1x24x80x512.ShapeCasts S24x80x512
  shapeCasts_S24x80x512_S1x24x80x512 : S24x80x512.ShapeCasts S1x24x80x512
  dot_S960x640_S640x1024_S960x1024_1_0_0_1_n_n_wf : DotDims.WF S960x640 S640x1024 S960x1024 [1] [0] [0] [1] [] []
  dot_S320x640_S640x1024_S320x1024_1_0_0_1_n_n_wf : DotDims.WF S320x640 S640x1024 S320x1024 [1] [0] [0] [1] [] []
  dot_S1920x1024_S1024x512_S1920x512_1_0_0_1_n_n_wf : DotDims.WF S1920x1024 S1024x512 S1920x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S960x640.size a ≤ S960x640.size a
  hwx0_0 : ∀ i : grid0.Coords, EltTy.bits .f32 = 32 ∨ (Rect.block (s := S960x640) S960x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1024.size a ≤ S640x1024.size a
  hwx0_1 : ∀ i : grid0.Coords, EltTy.bits .f32 = 32 ∨ (Rect.block (s := S640x1024) S640x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S960x1024.size a ≤ S960x1024.size a
  hwx0_3 : ∀ i : grid0.Coords, EltTy.bits .f32 = 32 ∨ (Rect.block (s := S960x1024) S960x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S320x640.size a ≤ S320x640.size a
  hwx1_0 : ∀ i : grid1.Coords, EltTy.bits .f32 = 32 ∨ (Rect.block (s := S320x640) S320x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x1024.size a ≤ S640x1024.size a
  hwx1_1 : ∀ i : grid1.Coords, EltTy.bits .f32 = 32 ∨ (Rect.block (s := S640x1024) S640x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S320x1024.size a ≤ S320x1024.size a
  hwx1_3 : ∀ i : grid1.Coords, EltTy.bits .f32 = 32 ∨ (Rect.block (s := S320x1024) S320x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x24x1024.size a ≤ S4x240x1024.size a
  hwx2_0 : ∀ i : grid2.Coords, EltTy.bits .f32 = 32 ∨ (Rect.block (s := S4x240x1024) S1x24x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x80x1024.size a ≤ S4x80x1024.size a
  hwx2_1 : ∀ i : grid2.Coords, EltTy.bits .f32 = 32 ∨ (Rect.block (s := S4x80x1024) S1x80x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x512.size a
  hwx2_2 : ∀ i : grid2.Coords, EltTy.bits .f32 = 32 ∨ (Rect.block (s := S1024x512) S1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x24x80x512.size a ≤ S4x240x80x512.size a
  hwx2_4 : ∀ i : grid2.Coords, EltTy.bits .f32 = 32 ∨ (Rect.block (s := S4x240x80x512) S1x24x80x512.size (cc2_transform_4 i) (hinb2_4 i)).WholeWords (EltTy.packing .f32)

variable [Facts₀]

def dot_S960x640_S640x1024_S960x1024_1_0_0_1_n_n : DotDims S960x640 S640x1024 S960x1024 where
  lhsContracting := [1]
  rhsContracting := [0]
  lhsNonContracting := [0]
  rhsNonContracting := [1]
  lhsBatch := []
  rhsBatch := []
  wf := dot_S960x640_S640x1024_S960x1024_1_0_0_1_n_n_wf
def dot_S320x640_S640x1024_S320x1024_1_0_0_1_n_n : DotDims S320x640 S640x1024 S320x1024 where
  lhsContracting := [1]
  rhsContracting := [0]
  lhsNonContracting := [0]
  rhsNonContracting := [1]
  lhsBatch := []
  rhsBatch := []
  wf := dot_S320x640_S640x1024_S320x1024_1_0_0_1_n_n_wf
def dot_S1920x1024_S1024x512_S1920x512_1_0_0_1_n_n : DotDims S1920x1024 S1024x512 S1920x512 where
  lhsContracting := [1]
  rhsContracting := [0]
  lhsNonContracting := [0]
  rhsNonContracting := [1]
  lhsBatch := []
  rhsBatch := []
  wf := dot_S1920x1024_S1024x512_S1920x512_1_0_0_1_n_n_wf

abbrev win0_0 : Pipeline.Window sig grid0 :=
  Pipeline.Window.ofSpec (Memref.whole main_v0) S960x640.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S960x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S320x640.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S640x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S320x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x24x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x80x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1024x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x24x80x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x240x640 : Shape := ⟨3, ![4, 240, 640]⟩
abbrev S4x80x640 : Shape := ⟨3, ![4, 80, 640]⟩
abbrev S640x1024 : Shape := ⟨2, ![640, 1024]⟩
abbrev S1024 : Shape := ⟨1, ![1024]⟩
abbrev S1024x512 : Shape := ⟨2, ![1024, 512]⟩
abbrev S512 : Shape := ⟨1, ![512]⟩
abbrev S4x240x1024 : Shape := ⟨3, ![4, 240, 1024]⟩
abbrev S1x1x1024 : Shape := ⟨3, ![1, 1, 1024]⟩
abbrev S4x80x1024 : Shape := ⟨3, ![4, 80, 1024]⟩
abbrev S4x240x1x1024 : Shape := ⟨4, ![4, 240, 1, 1024]⟩
abbrev S4x1x80x1024 : Shape := ⟨4, ![4, 1, 80, 1024]⟩
abbrev S4x240x80x1024 : Shape := ⟨4, ![4, 240, 80, 1024]⟩
abbrev S4x240x80x512 : Shape := ⟨4, ![4, 240, 80, 512]⟩
abbrev S1x1x1x512 : Shape := ⟨4, ![1, 1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x240x640, .f32⟩
  | .hbm, ⟨1, _⟩ => ⟨S4x80x640, .f32⟩
  | .hbm, ⟨2, _⟩ => ⟨S640x1024, .f32⟩
  | .hbm, ⟨3, _⟩ => ⟨S1024, .f32⟩
  | .hbm, ⟨4, _⟩ => ⟨S640x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S4x240x1024, .f32⟩
  | .hbm, ⟨9, _⟩ => ⟨S1x1x1024, .f32⟩
  | .hbm, ⟨10, _⟩ => ⟨S4x240x1024, .f32⟩
  | .hbm, ⟨11, _⟩ => ⟨S4x240x1024, .f32⟩
  | .hbm, ⟨12, _⟩ => ⟨S4x80x1024, .f32⟩
  | .hbm, ⟨13, _⟩ => ⟨S1x1x1024, .f32⟩
  | .hbm, ⟨14, _⟩ => ⟨S4x80x1024, .f32⟩
  | .hbm, ⟨15, _⟩ => ⟨S4x80x1024, .f32⟩
  | .hbm, ⟨16, _⟩ => ⟨S4x240x1x1024, .f32⟩
  | .hbm, ⟨17, _⟩ => ⟨S4x1x80x1024, .f32⟩
  | .hbm, ⟨18, _⟩ => ⟨S4x240x80x1024, .f32⟩
  | .hbm, ⟨19, _⟩ => ⟨S4x240x80x1024, .f32⟩
  | .hbm, ⟨20, _⟩ => ⟨S4x240x80x1024, .f32⟩
  | .hbm, ⟨21, _⟩ => ⟨S4x240x80x1024, .f32⟩
  | .hbm, ⟨22, _⟩ => ⟨S4x240x80x512, .f32⟩
  | .hbm, ⟨23, _⟩ => ⟨S1x1x1x512, .f32⟩
  | .hbm, ⟨24, _⟩ => ⟨S4x240x80x512, .f32⟩
  | .hbm, ⟨25, _⟩ => ⟨S4x240x80x512, .f32⟩
  | _, _ => ⟨S4x240x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x240x1024_0_1_2 : S1x1x1024.BroadcastsInDim S4x240x1024 (![0, 1, 2] : Fin 3 → Fin S4x240x1024.rank)
  bcast_S1x1x1024_S4x80x1024_0_1_2 : S1x1x1024.BroadcastsInDim S4x80x1024 (![0, 1, 2] : Fin 3 → Fin S4x80x1024.rank)
  bcast_S4x240x1024_S4x240x1x1024_0_1_3 : S4x240x1024.BroadcastsInDim S4x240x1x1024 (![0, 1, 3] : Fin 3 → Fin S4x240x1x1024.rank)
  bcast_S4x80x1024_S4x1x80x1024_0_2_3 : S4x80x1024.BroadcastsInDim S4x1x80x1024 (![0, 2, 3] : Fin 3 → Fin S4x1x80x1024.rank)
  bcast_S4x240x1x1024_S4x240x80x1024_0_1_2_3 : S4x240x1x1024.BroadcastsInDim S4x240x80x1024 (![0, 1, 2, 3] : Fin 4 → Fin S4x240x80x1024.rank)
  bcast_S4x1x80x1024_S4x240x80x1024_0_1_2_3 : S4x1x80x1024.BroadcastsInDim S4x240x80x1024 (![0, 1, 2, 3] : Fin 4 → Fin S4x240x80x1024.rank)
  bcast_S512_S1x1x1x512_3 : S512.BroadcastsInDim S1x1x1x512 (![3] : Fin 1 → Fin S1x1x1x512.rank)
  bcast_S1x1x1x512_S4x240x80x512_0_1_2_3 : S1x1x1x512.BroadcastsInDim S4x240x80x512 (![0, 1, 2, 3] : Fin 4 → Fin S4x240x80x512.rank)
  dot_S4x240x640_S640x1024_S4x240x1024_2_0_01_1_n_n_wf : DotDims.WF S4x240x640 S640x1024 S4x240x1024 [2] [0] [0, 1] [1] [] []
  dot_S4x80x640_S640x1024_S4x80x1024_2_0_01_1_n_n_wf : DotDims.WF S4x80x640 S640x1024 S4x80x1024 [2] [0] [0, 1] [1] [] []
  dot_S4x240x80x1024_S1024x512_S4x240x80x512_3_0_012_1_n_n_wf : DotDims.WF S4x240x80x1024 S1024x512 S4x240x80x512 [3] [0] [0, 1, 2] [1] [] []

variable [Facts₀]

def dot_S4x240x640_S640x1024_S4x240x1024_2_0_01_1_n_n : DotDims S4x240x640 S640x1024 S4x240x1024 where
  lhsContracting := [2]
  rhsContracting := [0]
  lhsNonContracting := [0, 1]
  rhsNonContracting := [1]
  lhsBatch := []
  rhsBatch := []
  wf := dot_S4x240x640_S640x1024_S4x240x1024_2_0_01_1_n_n_wf
def dot_S4x80x640_S640x1024_S4x80x1024_2_0_01_1_n_n : DotDims S4x80x640 S640x1024 S4x80x1024 where
  lhsContracting := [2]
  rhsContracting := [0]
  lhsNonContracting := [0, 1]
  rhsNonContracting := [1]
  lhsBatch := []
  rhsBatch := []
  wf := dot_S4x80x640_S640x1024_S4x80x1024_2_0_01_1_n_n_wf
def dot_S4x240x80x1024_S1024x512_S4x240x80x512_3_0_012_1_n_n : DotDims S4x240x80x1024 S1024x512 S4x240x80x512 where
  lhsContracting := [3]
  rhsContracting := [0]
  lhsNonContracting := [0, 1, 2]
  rhsNonContracting := [1]
  lhsBatch := []
  rhsBatch := []
  wf := dot_S4x240x80x1024_S1024x512_S4x240x80x512_3_0_012_1_n_n_wf

class Facts : Prop extends Facts₀ where

variable [Facts]
-- ==== Proof.JointSpec.lean ====
import Idealize.ShloMosaic.PureOps.Ideal
import Idealize.ShloMosaic.Lib.ValueIdx

/-!
The joint network's logits as one function of the eight argument arrays, entry by entry, on the extended reals.

With `x : [4, 240, 640]` the encoder output, `y : [4, 80, 640]` the prediction output, `we, wp : [640, 1024]` and
`be, bp : [1024]` the two projections, and `wo : [1024, 512]`, `bo : [512]` the vocabulary projection:

  e b t j = ∑ k, x b t k · we k j + be j
  p b u j = ∑ k, y b u k · wp k j + bp j
  logits b t u v = ∑ j, tanh (e b t j + p b u j) · wo j v + bo v

Each sum is a finite sum in the extended reals; `tanh` is the ideal one (`-1` and `1` at the infinities).
Both programs are shown to compute exactly this term, so no law of the extended reals beyond `0 + a = a` is used and
the finiteness of the inputs is never needed.
-/

noncomputable section

namespace Cert.JointSpec

open Idealize.ShloMosaic Idealize.ShloMosaic.ValueIdx

/-- The encoder projection at batch `b`, frame `t`, joint feature `j`. -/
def encAt (x : (⟨3, ![4, 240, 640]⟩ : Shape).Idx → EReal) (we : (⟨2, ![640, 1024]⟩ : Shape).Idx → EReal)
    (be : (⟨1, ![1024]⟩ : Shape).Idx → EReal) (b : Fin 4) (t : Fin 240) (j : Fin 1024) : EReal :=
  (∑ k : Fin 640, x (ix3 b t k) * we (ix2 k j)) + be (ix1 j)

/-- The prediction projection at batch `b`, label position `u`, joint feature `j`. -/
def predAt (y : (⟨3, ![4, 80, 640]⟩ : Shape).Idx → EReal) (wp : (⟨2, ![640, 1024]⟩ : Shape).Idx → EReal)
    (bp : (⟨1, ![1024]⟩ : Shape).Idx → EReal) (b : Fin 4) (u : Fin 80) (j : Fin 1024) : EReal :=
  (∑ k : Fin 640, y (ix3 b u k) * wp (ix2 k j)) + bp (ix1 j)

/-- One logit from the two projections: the `tanh` of their sum over the joint features, against column `v` of the
    vocabulary projection, plus its bias. -/
def logitAt (e : Fin 4 → Fin 240 → Fin 1024 → EReal) (p : Fin 4 → Fin 80 → Fin 1024 → EReal)
    (wo : (⟨2, ![1024, 512]⟩ : Shape).Idx → EReal) (bo : (⟨1, ![512]⟩ : Shape).Idx → EReal)
    (b : Fin 4) (t : Fin 240) (u : Fin 80) (v : Fin 512) : EReal :=
  (∑ j : Fin 1024, Ideal.tanh (e b t j + p b u j) * wo (ix2 j v)) + bo (ix1 v)

/-- The whole result array `[4, 240, 80, 512]`. -/
def logits (x : (⟨3, ![4, 240, 640]⟩ : Shape).Idx → EReal) (y : (⟨3, ![4, 80, 640]⟩ : Shape).Idx → EReal)
    (we : (⟨2, ![640, 1024]⟩ : Shape).Idx → EReal) (be : (⟨1, ![1024]⟩ : Shape).Idx → EReal)
    (wp : (⟨2, ![640, 1024]⟩ : Shape).Idx → EReal) (bp : (⟨1, ![1024]⟩ : Shape).Idx → EReal)
    (wo : (⟨2, ![1024, 512]⟩ : Shape).Idx → EReal) (bo : (⟨1, ![512]⟩ : Shape).Idx → EReal) :
    (⟨4, ![4, 240, 80, 512]⟩ : Shape).Idx → EReal :=
  fun i => logitAt (encAt x we be) (predAt y wp bp) wo bo (i 0) (i 1) (i 2) (i 3)

theorem logits_ix4 (x : (⟨3, ![4, 240, 640]⟩ : Shape).Idx → EReal) (y : (⟨3, ![4, 80, 640]⟩ : Shape).Idx → EReal)
    (we : (⟨2, ![640, 1024]⟩ : Shape).Idx → EReal) (be : (⟨1, ![1024]⟩ : Shape).Idx → EReal)
    (wp : (⟨2, ![640, 1024]⟩ : Shape).Idx → EReal) (bp : (⟨1, ![1024]⟩ : Shape).Idx → EReal)
    (wo : (⟨2, ![1024, 512]⟩ : Shape).Idx → EReal) (bo : (⟨1, ![512]⟩ : Shape).Idx → EReal)
    (b : Fin 4) (t : Fin 240) (u : Fin 80) (v : Fin 512) :
    logits x y we be wp bp wo bo (ix4 b t u v) = logitAt (encAt x we be) (predAt y wp bp) wo bo b t u v := rfl

end Cert.JointSpec

end
-- ==== Proof.RefIsSpec.lean ====
import proofs.«162195_j8847632629854_1_alg».proof.Proof.Gen.ReferenceIdeal.Read
import proofs.«162195_j8847632629854_1_alg».proof.Proof.JointSpec

/-!
The reference computes the specification. Its result is read one operation at a time through the generated
read-at-an-index lemmas: the last addition, the vocabulary product as a sum over the 1024 joint features, `tanh`, the sum
of the two projections repeated along each other's axis, and each projection as a sum over the 640 input features plus
its bias. Every index function those lemmas compose is, axis by axis, the plain coordinates.
-/

noncomputable section

namespace Cert.ReferenceIdeal.IsSpec

open Cert.ReferenceIdeal Cert.ReferenceIdeal.Read Idealize.ShloMosaic Idealize.ShloMosaic.ValueIdx Cert.JointSpec

/-! ## The composed index functions at coordinates -/

theorem enc_lhs (b : Fin 4) (t : Fin 240) (j : Fin 1024) (k : Fin 640) : lidx_main_v0 (ix3 b t j) k = ix3 b t k :=
  funext fun a => Fin.ext (by match a with | ⟨0, _⟩ => rfl | ⟨1, _⟩ => rfl | ⟨2, _⟩ => rfl)
theorem enc_rhs (b : Fin 4) (t : Fin 240) (j : Fin 1024) (k : Fin 640) : ridx_main_v0 (ix3 b t j) k = ix2 k j :=
  funext fun a => Fin.ext (by match a with | ⟨0, _⟩ => rfl | ⟨1, _⟩ => rfl)
theorem enc_bias (b : Fin 4) (t : Fin 240) (j : Fin 1024) : idx_main_v1 (idx_main_v2 (ix3 b t j)) = ix1 j :=
  funext fun a => Fin.ext (by match a with | ⟨0, _⟩ => rfl)
theorem pred_lhs (b : Fin 4) (u : Fin 80) (j : Fin 1024) (k : Fin 640) : lidx_main_v4 (ix3 b u j) k = ix3 b u k :=
  funext fun a => Fin.ext (by match a with | ⟨0, _⟩ => rfl | ⟨1, _⟩ => rfl | ⟨2, _⟩ => rfl)
theorem pred_rhs (b : Fin 4) (u : Fin 80) (j : Fin 1024) (k : Fin 640) : ridx_main_v4 (ix3 b u j) k = ix2 k j :=
  funext fun a => Fin.ext (by match a with | ⟨0, _⟩ => rfl | ⟨1, _⟩ => rfl)
theorem pred_bias (b : Fin 4) (u : Fin 80) (j : Fin 1024) : idx_main_v5 (idx_main_v6 (ix3 b u j)) = ix1 j :=
  funext fun a => Fin.ext (by match a with | ⟨0, _⟩ => rfl)
theorem enc_rep (b : Fin 4) (t : Fin 240) (u : Fin 80) (j : Fin 1024) : idx_main_v8 (idx_main_v10 (ix4 b t u j)) = ix3 b t j :=
  funext fun a => Fin.ext (by match a with | ⟨0, _⟩ => rfl | ⟨1, _⟩ => rfl | ⟨2, _⟩ => rfl)
theorem pred_rep (b : Fin 4) (t : Fin 240) (u : Fin 80) (j : Fin 1024) : idx_main_v9 (idx_main_v11 (ix4 b t u j)) = ix3 b u j :=
  funext fun a => Fin.ext (by match a with | ⟨0, _⟩ => rfl | ⟨1, _⟩ => rfl | ⟨2, _⟩ => rfl)
theorem out_lhs (b : Fin 4) (t : Fin 240) (u : Fin 80) (v : Fin 512) (j : Fin 1024) : lidx_main_v14 (ix4 b t u v) j = ix4 b t u j :=
  funext fun a => Fin.ext (by match a with | ⟨0, _⟩ => rfl | ⟨1, _⟩ => rfl | ⟨2, _⟩ => rfl | ⟨3, _⟩ => rfl)
theorem out_rhs (b : Fin 4) (t : Fin 240) (u : Fin 80) (v : Fin 512) (j : Fin 1024) : ridx_main_v14 (ix4 b t u v) j = ix2 j v :=
  funext fun a => Fin.ext (by match a with | ⟨0, _⟩ => rfl | ⟨1, _⟩ => rfl)
theorem out_bias (b : Fin 4) (t : Fin 240) (u : Fin 80) (v : Fin 512) : idx_main_v15 (idx_main_v16 (ix4 b t u v)) = ix1 v :=
  funext fun a => Fin.ext (by match a with | ⟨0, _⟩ => rfl)

/-! ## The stages -/

/-- The encoder projection stage at `(b, t, j)`. -/
theorem enc_stage (x0 : (⟨S4x240x640, .f32⟩ : BufTy).Contents (Elt Ideal)) (x2 : (⟨S640x1024, .f32⟩ : BufTy).Contents (Elt Ideal))
    (x3 : (⟨S1024, .f32⟩ : BufTy).Contents (Elt Ideal)) (b : Fin 4) (t : Fin 240) (j : Fin 1024) :
    val_main_v3 (F := Ideal) x0 x2 x3 (ix3 b t j) = encAt x0 x2 x3 b t j := by
  rw [val_main_v3_apply, val_main_v0_apply, val_main_v2_apply, val_main_v1_apply, enc_bias]
  simp only [enc_lhs, enc_rhs]
  rfl

/-- The prediction projection stage at `(b, u, j)`. -/
theorem pred_stage (x1 : (⟨S4x80x640, .f32⟩ : BufTy).Contents (Elt Ideal)) (x4 : (⟨S640x1024, .f32⟩ : BufTy).Contents (Elt Ideal))
    (x5 : (⟨S1024, .f32⟩ : BufTy).Contents (Elt Ideal)) (b : Fin 4) (u : Fin 80) (j : Fin 1024) :
    val_main_v7 (F := Ideal) x1 x4 x5 (ix3 b u j) = predAt x1 x4 x5 b u j := by
  rw [val_main_v7_apply, val_main_v4_apply, val_main_v6_apply, val_main_v5_apply, pred_bias]
  simp only [pred_lhs, pred_rhs]
  rfl

/-- The activation stage at `(b, t, u, j)`: `tanh` of the two projections' sum. -/
theorem act_stage (x0 : (⟨S4x240x640, .f32⟩ : BufTy).Contents (Elt Ideal)) (x1 : (⟨S4x80x640, .f32⟩ : BufTy).Contents (Elt Ideal))
    (x2 : (⟨S640x1024, .f32⟩ : BufTy).Contents (Elt Ideal)) (x3 : (⟨S1024, .f32⟩ : BufTy).Contents (Elt Ideal))
    (x4 : (⟨S640x1024, .f32⟩ : BufTy).Contents (Elt Ideal)) (x5 : (⟨S1024, .f32⟩ : BufTy).Contents (Elt Ideal))
    (b : Fin 4) (t : Fin 240) (u : Fin 80) (j : Fin 1024) :
    val_main_v13 (F := Ideal) x0 x1 x2 x3 x4 x5 (ix4 b t u j) = Ideal.tanh (encAt x0 x2 x3 b t j + predAt x1 x4 x5 b u j) := by
  rw [val_main_v13_apply, val_main_v12_apply, val_main_v10_apply, val_main_v8_apply, val_main_v11_apply, val_main_v9_apply,
    enc_rep, pred_rep, enc_stage, pred_stage]
  rfl

/-- The reference's result is the specification's logits. -/
theorem result_eq (x0 : (⟨S4x240x640, .f32⟩ : BufTy).Contents (Elt Ideal)) (x1 : (⟨S4x80x640, .f32⟩ : BufTy).Contents (Elt Ideal))
    (x2 : (⟨S640x1024, .f32⟩ : BufTy).Contents (Elt Ideal)) (x3 : (⟨S1024, .f32⟩ : BufTy).Contents (Elt Ideal))
    (x4 : (⟨S640x1024, .f32⟩ : BufTy).Contents (Elt Ideal)) (x5 : (⟨S1024, .f32⟩ : BufTy).Contents (Elt Ideal))
    (x6 : (⟨S1024x512, .f32⟩ : BufTy).Contents (Elt Ideal)) (x7 : (⟨S512, .f32⟩ : BufTy).Contents (Elt Ideal)) :
    val_main_v17 (F := Ideal) x0 x1 x2 x3 x4 x5 x6 x7 = logits x0 x1 x2 x3 x4 x5 x6 x7 := by
  funext i
  obtain ⟨b, t, u, v, rfl⟩ : ∃ (b : Fin 4) (t : Fin 240) (u : Fin 80) (v : Fin 512), i = ix4 b t u v :=
    ⟨i 0, i 1, i 2, i 3, eq_ix4 i⟩
  rw [logits_ix4, val_main_v17_apply, val_main_v14_apply, val_main_v16_apply, val_main_v15_apply, out_bias]
  simp only [out_lhs, out_rhs, act_stage]
  rfl

end Cert.ReferenceIdeal.IsSpec

end
-- ==== Proof.EncBody.lean ====
import proofs.«162195_j8847632629854_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
The encoder projection's body, read at an index. The body loads a block of 960 rows of 640 features, the
640 × 1024 weight and the bias of length 1024, and stores, at row `p` and column `q`,
`∑ k, x p k · w k q + b q`: the matrix product into a zero accumulator is that plain sum on the extended reals,
rounding the operands to bf16 is the identity there, and the bias is one row repeated over every row.
-/

noncomputable section

namespace Cert.KernelIdeal.EncBody

open Cert.KernelIdeal Cert.KernelIdeal.Gen Idealize.ShloMosaic Idealize.ShloMosaic.ValueIdx

/-- On the row axis, the left operand's index of the product is the output's row. -/
theorem lhs_row (i : S960x1024.Idx) (q : dot_S960x640_S640x1024_S960x1024_1_0_0_1_n_n.contr.Idx) : (dot_S960x640_S640x1024_S960x1024_1_0_0_1_n_n.lhsIdx i q 0).val = (i 0).val := by
  unfold DotDims.lhsIdx
  rw [dif_neg (show ¬(0 : Fin S960x640.rank) ∈ dot_S960x640_S640x1024_S960x1024_1_0_0_1_n_n.lhsBatch by decide), dif_pos (show (0 : Fin S960x640.rank) ∈ dot_S960x640_S640x1024_S960x1024_1_0_0_1_n_n.lhsNonContracting by decide)]
  rfl

/-- On the column axis, the right operand's index of the product is the output's column. -/
theorem rhs_col (i : S960x1024.Idx) (q : dot_S960x640_S640x1024_S960x1024_1_0_0_1_n_n.contr.Idx) : (dot_S960x640_S640x1024_S960x1024_1_0_0_1_n_n.rhsIdx i q 1).val = (i 1).val := by
  unfold DotDims.rhsIdx
  rw [dif_neg (show ¬(1 : Fin S640x1024.rank) ∈ dot_S960x640_S640x1024_S960x1024_1_0_0_1_n_n.rhsBatch by decide), dif_pos (show (1 : Fin S640x1024.rank) ∈ dot_S960x640_S640x1024_S960x1024_1_0_0_1_n_n.rhsNonContracting by decide)]
  rfl

/-- The matrix product into a zero accumulator, at row `p` and column `q`: the sum over the 640 input features of
    the row's entry times the weight's. -/
theorem matmul_apply (l : FVec Ideal S960x640 .bf16) (r : FVec Ideal S640x1024 .bf16) (p : Fin 960) (q : Fin 1024) :
    matmul dot_S960x640_S640x1024_S960x1024_1_0_0_1_n_n none l r (constant S960x1024 .f32 0x00000000#32) (ix2 p q)
      = ∑ k : Fin 640, l (ix2 p k) * r (ix2 k q) := by
  simp only [matmul]
  rw [Ideal.matmul_constant_zero_apply, ← Equiv.sum_comp (contrEquiv1 dot_S960x640_S640x1024_S960x1024_1_0_0_1_n_n 640 rfl rfl).symm]
  refine Finset.sum_congr rfl fun k _ => ?_
  have hk := contrEquiv1_symm_val dot_S960x640_S640x1024_S960x1024_1_0_0_1_n_n 640 rfl rfl k
  have el : dot_S960x640_S640x1024_S960x1024_1_0_0_1_n_n.lhsIdx (ix2 p q) ((contrEquiv1 dot_S960x640_S640x1024_S960x1024_1_0_0_1_n_n 640 rfl rfl).symm k) = ix2 p k := funext fun a => Fin.ext (by
    match a with
    | ⟨0, _⟩ => exact lhs_row _ _
    | ⟨1, _⟩ => exact (dot_S960x640_S640x1024_S960x1024_1_0_0_1_n_n.lhsIdx_val_of_single rfl _ _).trans hk)
  have er : dot_S960x640_S640x1024_S960x1024_1_0_0_1_n_n.rhsIdx (ix2 p q) ((contrEquiv1 dot_S960x640_S640x1024_S960x1024_1_0_0_1_n_n 640 rfl rfl).symm k) = ix2 k q := funext fun a => Fin.ext (by
    match a with
    | ⟨0, _⟩ => exact (dot_S960x640_S640x1024_S960x1024_1_0_0_1_n_n.rhsIdx_val_of_single rfl _ _).trans hk
    | ⟨1, _⟩ => exact rhs_col _ _)
  rw [el, er]

/-- The bias, viewed as one row and repeated over the 960 rows, at row `p` and column `q`: the bias at `q`. -/
theorem bias_apply (b : Vec Ideal S1024 .f32) (p : Fin 960) (q : Fin 1024) :
    broadcastTo S960x1024 (shapeCast S1x1024 b shapeCasts_S1024_S1x1024) broadcasts_S1x1024_S960x1024 (ix2 p q) = b (ix1 q) := by
  rw [broadcastTo_1b_ab_apply, shapeCast_a_1a_apply]

/-- What the body stores, at row `p` and column `q`: the row of the input block against the column of the weight,
    plus the bias at the column. -/
theorem pay_apply (x : Vec Ideal S960x640 .f32) (w : Vec Ideal S640x1024 .f32) (b : Vec Ideal S1024 .f32) (p : Fin 960) (q : Fin 1024) :
    k0_pay1 x w b (ix2 p q) = (∑ k : Fin 640, x (ix2 p k) * w (ix2 k q)) + b (ix1 q) := by
  unfold k0_pay1
  refine (addf_apply _ _ _).trans ?_
  refine congrArg₂ (· + ·) ?_ (bias_apply b p q)
  refine (matmul_apply _ _ p q).trans ?_
  rw [shapeCast_self]
  rfl

end Cert.KernelIdeal.EncBody

end
-- ==== Proof.EncRegion.lean ====
import proofs.«162195_j8847632629854_1_alg».proof.Proof.Gen.KernelIdeal.Frame
import proofs.«162195_j8847632629854_1_alg».proof.Proof.EncBody
import Idealize.ShloMosaic.Lib.Pipeline.Value

/-!
The encoder projection's region, from its blocks to its whole result array. The region has one grid point; its
windows are the whole arrays (the 960 × 640 input, the weight, the bias and the 960 × 1024 result), every block index zero.
So the one point writes back, at row `p` and column `q`, `∑ k, x p k · w k q + b q` of the arrays as the region
finds them, that block is the whole result, and the result array ends as that function.
-/

noncomputable section

namespace Cert.KernelIdeal.EncRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The projection of the whole arrays: row `i 0` of `x` against column `i 1` of `w`, plus the bias at the column. -/
def lin (x : S960x640.Idx → EReal) (w : S640x1024.Idx → EReal) (b : S1024.Idx → EReal) : S960x1024.Idx → EReal :=
  fun i => (∑ k : Fin 640, x (ix2 (i 0) k) * w (ix2 k (i 1))) + b (ix1 (i 1))

theorem lin_ix2 (x : S960x640.Idx → EReal) (w : S640x1024.Idx → EReal) (b : S1024.Idx → EReal) (p : Fin 960) (q : Fin 1024) :
    lin x w b (ix2 p q) = (∑ k : Fin 640, x (ix2 p k) * w (ix2 k q)) + b (ix1 q) := rfl

theorem hz2 : (![0, 0] : Fin 2 → Nat) = fun _ => 0 := funext fun a => by fin_cases a <;> rfl
theorem hz1 : (![0] : Fin 1 → Nat) = fun _ => 0 := funext fun a => by fin_cases a; rfl

/-- The body's stored value over blocks that are the whole arrays is the projection, index by index. -/
theorem block_eq (X : S960x640.Idx → EReal) (W : S640x1024.Idx → EReal) (B : S1024.Idx → EReal)
    (x : Vec Ideal S960x640 .f32) (w : Vec Ideal S640x1024 .f32) (b : Vec Ideal S1024 .f32)
    (hx : x = X) (hw : w = W) (hb : b = B) (y i : S960x1024.Idx) (h0 : (i 0).val = (y 0).val) (h1 : (i 1).val = (y 1).val) :
    k0_pay1 x w b y = lin X W B i := by
  subst hx hw hb
  have hi : i = y := funext fun a => Fin.ext (by match a with | ⟨0, _⟩ => exact h0 | ⟨1, _⟩ => exact h1)
  subst hi
  obtain ⟨p, q, rfl⟩ : ∃ (p : Fin 960) (q : Fin 1024), i = ix2 p q := ⟨i 0, i 1, eq_ix2 i⟩
  rw [EncBody.pay_apply, lin_ix2]

/-- Every window's block index is zero at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The input window's block is the whole input array. -/
theorem blk_in (c : Dev nD) (t : Fin cfg0.N) : iblk0 V c 0 t = V c main_v0 := by
  obtain ⟨e0, e1, -⟩ := idx_facts t
  funext y
  show V c main_v0 (((cfg0.win 0).blk t).view.emb y) = V c main_v0 y
  refine congrArg _ (funext fun a => Fin.ext ?_)
  match a with
  | ⟨0, _⟩ => show win0_0.index t (0 : Fin 2) * 960 + 1 * (y 0).val = (y 0).val; omega
  | ⟨1, _⟩ => show win0_0.index t (1 : Fin 2) * 640 + 1 * (y 1).val = (y 1).val; omega

/-- The weight window's block is the whole weight. -/
theorem blk_w (c : Dev nD) (t : Fin cfg0.N) : iblk0 V c 1 t = V c main_arg2 := by
  obtain ⟨-, -, e2, e3, -⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 640 + 1 * (y 0).val = (y 0).val; omega
  | ⟨1, _⟩ => show win0_1.index t (1 : Fin 2) * 1024 + 1 * (y 1).val = (y 1).val; omega

/-- The bias window's block is the whole bias. -/
theorem blk_b (c : Dev nD) (t : Fin cfg0.N) : iblk0 V c 2 t = V c main_arg3 := by
  obtain ⟨-, -, -, -, e4, -⟩ := idx_facts t
  funext y
  show V c main_arg3 (((cfg0.win 2).blk t).view.emb y) = V c main_arg3 y
  refine congrArg _ (funext fun a => Fin.ext ?_)
  match a with
  | ⟨0, _⟩ => show win0_2.index t (0 : Fin 1) * 1024 + 1 * (y 0).val = (y 0).val; omega

/-- What the grid point writes back is its block of the projection of the arrays as the region finds them. -/
theorem flushed_eq (c : Dev nD) (t : Fin cfg0.N) :
    (dat0 V c).flushed 3 t = ((cfg0.win 3).blk t).view.read (Elt Ideal) (lin (V c main_v0) (V c main_arg2) (V c main_arg3)) := by
  show (cfg0.win 3).cut (grid0.coords t) ((dat0 V c).after 3 t) = _
  rw [after0_3]
  unfold out0_3
  rw [View.canon_unit_zero hz2]
  simp only [View.ld_unit_zero (S := S960x640) hz2, View.ld_unit_zero (S := S640x1024) hz2, View.ld_unit_zero (S := S1024) hz1]
  obtain ⟨-, -, -, -, -, e5, e6⟩ := idx_facts t
  funext y
  refine block_eq _ _ _ _ _ _ (blk_in V c t) (blk_w V c t) (blk_b V c t) y _ ?_ ?_
  · show win0_3.index t (0 : Fin 2) * 960 + 1 * (y 0).val = (y 0).val; omega
  · show win0_3.index t (1 : Fin 2) * 1024 + 1 * (y 1).val = (y 1).val; omega

/-- An index of the result array is in the point's block iff each coordinate is in the block's range on its axis. -/
theorem mem_blk (t : Fin cfg0.N) (i : S960x1024.Idx) :
    i ∈ ((cfg0.win 3).blk t).view.set ↔ ∀ a : Fin 2, win0_3.index t a * S960x1024.size a ≤ (i a).val ∧ (i a).val < win0_3.index t a * S960x1024.size a + S960x1024.size a := by
  show i ∈ ((View.whole main_v2).slice (win0_3.rect t)).set ↔ _
  rw [View.set_slice_whole, Rect.mem_set_unit]
  exact Iff.rfl

/-- The one block is the whole result array. -/
theorem cover (i : S960x1024.Idx) : ∃ t : Fin cfg0.N, (cfg0.win 3).flush t = true ∧ i ∈ ((cfg0.win 3).blk t).view.set := by
  refine ⟨t0_0, flush0_3 _, ?_⟩
  obtain ⟨-, -, -, -, -, e5, e6⟩ := idx_facts t0_0
  rw [mem_blk]
  intro a
  have h0 : (i 0).val < 960 := (i 0).isLt
  have h1 : (i 1).val < 1024 := (i 1).isLt
  match a with
  | ⟨0, _⟩ => show win0_3.index t0_0 (0 : Fin 2) * 960 ≤ (i 0).val ∧ (i 0).val < win0_3.index t0_0 (0 : Fin 2) * 960 + 960; omega
  | ⟨1, _⟩ => show win0_3.index t0_0 (1 : Fin 2) * 1024 ≤ (i 1).val ∧ (i 1).val < win0_3.index t0_0 (1 : Fin 2) * 1024 + 1024; omega

/-- The result array after the region: the projection of the arrays as the region finds them. -/
theorem final (c : Dev nD) : (dat0 V c).arrAt 3 cfg0.N = lin (V c main_v0) (V c main_arg2) (V c main_arg3) :=
  (dat0 V c).arrAt_eq_of_cover 3 _ (fun t _ => flushed_eq V c t) cover

end Cert.KernelIdeal.EncRegion

end
-- ==== Proof.PredBody.lean ====
import proofs.«162195_j8847632629854_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
The prediction projection's body, read at an index. The body loads a block of 320 rows of 640 features, the
640 × 1024 weight and the bias of length 1024, and stores, at row `p` and column `q`,
`∑ k, x p k · w k q + b q`: the matrix product into a zero accumulator is that plain sum on the extended reals,
rounding the operands to bf16 is the identity there, and the bias is one row repeated over every row.
-/

noncomputable section

namespace Cert.KernelIdeal.PredBody

open Cert.KernelIdeal Cert.KernelIdeal.Gen Idealize.ShloMosaic Idealize.ShloMosaic.ValueIdx

/-- On the row axis, the left operand's index of the product is the output's row. -/
theorem lhs_row (i : S320x1024.Idx) (q : dot_S320x640_S640x1024_S320x1024_1_0_0_1_n_n.contr.Idx) : (dot_S320x640_S640x1024_S320x1024_1_0_0_1_n_n.lhsIdx i q 0).val = (i 0).val := by
  unfold DotDims.lhsIdx
  rw [dif_neg (show ¬(0 : Fin S320x640.rank) ∈ dot_S320x640_S640x1024_S320x1024_1_0_0_1_n_n.lhsBatch by decide), dif_pos (show (0 : Fin S320x640.rank) ∈ dot_S320x640_S640x1024_S320x1024_1_0_0_1_n_n.lhsNonContracting by decide)]
  rfl

/-- On the column axis, the right operand's index of the product is the output's column. -/
theorem rhs_col (i : S320x1024.Idx) (q : dot_S320x640_S640x1024_S320x1024_1_0_0_1_n_n.contr.Idx) : (dot_S320x640_S640x1024_S320x1024_1_0_0_1_n_n.rhsIdx i q 1).val = (i 1).val := by
  unfold DotDims.rhsIdx
  rw [dif_neg (show ¬(1 : Fin S640x1024.rank) ∈ dot_S320x640_S640x1024_S320x1024_1_0_0_1_n_n.rhsBatch by decide), dif_pos (show (1 : Fin S640x1024.rank) ∈ dot_S320x640_S640x1024_S320x1024_1_0_0_1_n_n.rhsNonContracting by decide)]
  rfl

/-- The matrix product into a zero accumulator, at row `p` and column `q`: the sum over the 640 input features of
    the row's entry times the weight's. -/
theorem matmul_apply (l : FVec Ideal S320x640 .bf16) (r : FVec Ideal S640x1024 .bf16) (p : Fin 320) (q : Fin 1024) :
    matmul dot_S320x640_S640x1024_S320x1024_1_0_0_1_n_n none l r (constant S320x1024 .f32 0x00000000#32) (ix2 p q)
      = ∑ k : Fin 640, l (ix2 p k) * r (ix2 k q) := by
  simp only [matmul]
  rw [Ideal.matmul_constant_zero_apply, ← Equiv.sum_comp (contrEquiv1 dot_S320x640_S640x1024_S320x1024_1_0_0_1_n_n 640 rfl rfl).symm]
  refine Finset.sum_congr rfl fun k _ => ?_
  have hk := contrEquiv1_symm_val dot_S320x640_S640x1024_S320x1024_1_0_0_1_n_n 640 rfl rfl k
  have el : dot_S320x640_S640x1024_S320x1024_1_0_0_1_n_n.lhsIdx (ix2 p q) ((contrEquiv1 dot_S320x640_S640x1024_S320x1024_1_0_0_1_n_n 640 rfl rfl).symm k) = ix2 p k := funext fun a => Fin.ext (by
    match a with
    | ⟨0, _⟩ => exact lhs_row _ _
    | ⟨1, _⟩ => exact (dot_S320x640_S640x1024_S320x1024_1_0_0_1_n_n.lhsIdx_val_of_single rfl _ _).trans hk)
  have er : dot_S320x640_S640x1024_S320x1024_1_0_0_1_n_n.rhsIdx (ix2 p q) ((contrEquiv1 dot_S320x640_S640x1024_S320x1024_1_0_0_1_n_n 640 rfl rfl).symm k) = ix2 k q := funext fun a => Fin.ext (by
    match a with
    | ⟨0, _⟩ => exact (dot_S320x640_S640x1024_S320x1024_1_0_0_1_n_n.rhsIdx_val_of_single rfl _ _).trans hk
    | ⟨1, _⟩ => exact rhs_col _ _)
  rw [el, er]

/-- The bias, viewed as one row and repeated over the 320 rows, at row `p` and column `q`: the bias at `q`. -/
theorem bias_apply (b : Vec Ideal S1024 .f32) (p : Fin 320) (q : Fin 1024) :
    broadcastTo S320x1024 (shapeCast S1x1024 b shapeCasts_S1024_S1x1024) broadcasts_S1x1024_S320x1024 (ix2 p q) = b (ix1 q) := by
  rw [broadcastTo_1b_ab_apply, shapeCast_a_1a_apply]

/-- What the body stores, at row `p` and column `q`: the row of the input block against the column of the weight,
    plus the bias at the column. -/
theorem pay_apply (x : Vec Ideal S320x640 .f32) (w : Vec Ideal S640x1024 .f32) (b : Vec Ideal S1024 .f32) (p : Fin 320) (q : Fin 1024) :
    k1_pay1 x w b (ix2 p q) = (∑ k : Fin 640, x (ix2 p k) * w (ix2 k q)) + b (ix1 q) := by
  unfold k1_pay1
  refine (addf_apply _ _ _).trans ?_
  refine congrArg₂ (· + ·) ?_ (bias_apply b p q)
  refine (matmul_apply _ _ p q).trans ?_
  rw [shapeCast_self]
  rfl

end Cert.KernelIdeal.PredBody

end
-- ==== Proof.PredRegion.lean ====
import proofs.«162195_j8847632629854_1_alg».proof.Proof.Gen.KernelIdeal.Frame
import proofs.«162195_j8847632629854_1_alg».proof.Proof.PredBody
import Idealize.ShloMosaic.Lib.Pipeline.Value

/-!
The prediction projection's region, from its blocks to its whole result array. The region has one grid point; its
windows are the whole arrays (the 320 × 640 input, the weight, the bias and the 320 × 1024 result), every block index zero.
So the one point writes back, at row `p` and column `q`, `∑ k, x p k · w k q + b q` of the arrays as the region
finds them, that block is the whole result, and the result array ends as that function.
-/

noncomputable section

namespace Cert.KernelIdeal.PredRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The projection of the whole arrays: row `i 0` of `x` against column `i 1` of `w`, plus the bias at the column. -/
def lin (x : S320x640.Idx → EReal) (w : S640x1024.Idx → EReal) (b : S1024.Idx → EReal) : S320x1024.Idx → EReal :=
  fun i => (∑ k : Fin 640, x (ix2 (i 0) k) * w (ix2 k (i 1))) + b (ix1 (i 1))

theorem lin_ix2 (x : S320x640.Idx → EReal) (w : S640x1024.Idx → EReal) (b : S1024.Idx → EReal) (p : Fin 320) (q : Fin 1024) :
    lin x w b (ix2 p q) = (∑ k : Fin 640, x (ix2 p k) * w (ix2 k q)) + b (ix1 q) := rfl

theorem hz2 : (![0, 0] : Fin 2 → Nat) = fun _ => 0 := funext fun a => by fin_cases a <;> rfl
theorem hz1 : (![0] : Fin 1 → Nat) = fun _ => 0 := funext fun a => by fin_cases a; rfl

/-- The body's stored value over blocks that are the whole arrays is the projection, index by index. -/
theorem block_eq (X : S320x640.Idx → EReal) (W : S640x1024.Idx → EReal) (B : S1024.Idx → EReal)
    (x : Vec Ideal S320x640 .f32) (w : Vec Ideal S640x1024 .f32) (b : Vec Ideal S1024 .f32)
    (hx : x = X) (hw : w = W) (hb : b = B) (y i : S320x1024.Idx) (h0 : (i 0).val = (y 0).val) (h1 : (i 1).val = (y 1).val) :
    k1_pay1 x w b y = lin X W B i := by
  subst hx hw hb
  have hi : i = y := funext fun a => Fin.ext (by match a with | ⟨0, _⟩ => exact h0 | ⟨1, _⟩ => exact h1)
  subst hi
  obtain ⟨p, q, rfl⟩ : ∃ (p : Fin 320) (q : Fin 1024), i = ix2 p q := ⟨i 0, i 1, eq_ix2 i⟩
  rw [PredBody.pay_apply, lin_ix2]

/-- Every window's block index is zero at the one grid point. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- The input window's block is the whole input array. -/
theorem blk_in (c : Dev nD) (t : Fin cfg1.N) : iblk1 V c 0 t = V c main_v1 := by
  obtain ⟨e0, e1, -⟩ := idx_facts t
  funext y
  show V c main_v1 (((cfg1.win 0).blk t).view.emb y) = V c main_v1 y
  refine congrArg _ (funext fun a => Fin.ext ?_)
  match a with
  | ⟨0, _⟩ => show win1_0.index t (0 : Fin 2) * 320 + 1 * (y 0).val = (y 0).val; omega
  | ⟨1, _⟩ => show win1_0.index t (1 : Fin 2) * 640 + 1 * (y 1).val = (y 1).val; omega

/-- The weight window's block is the whole weight. -/
theorem blk_w (c : Dev nD) (t : Fin cfg1.N) : iblk1 V c 1 t = V c main_arg4 := by
  obtain ⟨-, -, e2, e3, -⟩ := idx_facts t
  funext y
  show V c main_arg4 (((cfg1.win 1).blk t).view.emb y) = V c main_arg4 y
  refine congrArg _ (funext fun a => Fin.ext ?_)
  match a with
  | ⟨0, _⟩ => show win1_1.index t (0 : Fin 2) * 640 + 1 * (y 0).val = (y 0).val; omega
  | ⟨1, _⟩ => show win1_1.index t (1 : Fin 2) * 1024 + 1 * (y 1).val = (y 1).val; omega

/-- The bias window's block is the whole bias. -/
theorem blk_b (c : Dev nD) (t : Fin cfg1.N) : iblk1 V c 2 t = V c main_arg5 := by
  obtain ⟨-, -, -, -, e4, -⟩ := idx_facts t
  funext y
  show V c main_arg5 (((cfg1.win 2).blk t).view.emb y) = V c main_arg5 y
  refine congrArg _ (funext fun a => Fin.ext ?_)
  match a with
  | ⟨0, _⟩ => show win1_2.index t (0 : Fin 1) * 1024 + 1 * (y 0).val = (y 0).val; omega

/-- What the grid point writes back is its block of the projection of the arrays as the region finds them. -/
theorem flushed_eq (c : Dev nD) (t : Fin cfg1.N) :
    (dat1 V c).flushed 3 t = ((cfg1.win 3).blk t).view.read (Elt Ideal) (lin (V c main_v1) (V c main_arg4) (V c main_arg5)) := by
  show (cfg1.win 3).cut (grid1.coords t) ((dat1 V c).after 3 t) = _
  rw [after1_3]
  unfold out1_3
  rw [View.canon_unit_zero hz2]
  simp only [View.ld_unit_zero (S := S320x640) hz2, View.ld_unit_zero (S := S640x1024) hz2, View.ld_unit_zero (S := S1024) hz1]
  obtain ⟨-, -, -, -, -, e5, e6⟩ := idx_facts t
  funext y
  refine block_eq _ _ _ _ _ _ (blk_in V c t) (blk_w V c t) (blk_b V c t) y _ ?_ ?_
  · show win1_3.index t (0 : Fin 2) * 320 + 1 * (y 0).val = (y 0).val; omega
  · show win1_3.index t (1 : Fin 2) * 1024 + 1 * (y 1).val = (y 1).val; omega

/-- An index of the result array is in the point's block iff each coordinate is in the block's range on its axis. -/
theorem mem_blk (t : Fin cfg1.N) (i : S320x1024.Idx) :
    i ∈ ((cfg1.win 3).blk t).view.set ↔ ∀ a : Fin 2, win1_3.index t a * S320x1024.size a ≤ (i a).val ∧ (i a).val < win1_3.index t a * S320x1024.size a + S320x1024.size a := by
  show i ∈ ((View.whole main_v3).slice (win1_3.rect t)).set ↔ _
  rw [View.set_slice_whole, Rect.mem_set_unit]
  exact Iff.rfl

/-- The one block is the whole result array. -/
theorem cover (i : S320x1024.Idx) : ∃ t : Fin cfg1.N, (cfg1.win 3).flush t = true ∧ i ∈ ((cfg1.win 3).blk t).view.set := by
  refine ⟨t1_0, flush1_3 _, ?_⟩
  obtain ⟨-, -, -, -, -, e5, e6⟩ := idx_facts t1_0
  rw [mem_blk]
  intro a
  have h0 : (i 0).val < 320 := (i 0).isLt
  have h1 : (i 1).val < 1024 := (i 1).isLt
  match a with
  | ⟨0, _⟩ => show win1_3.index t1_0 (0 : Fin 2) * 320 ≤ (i 0).val ∧ (i 0).val < win1_3.index t1_0 (0 : Fin 2) * 320 + 320; omega
  | ⟨1, _⟩ => show win1_3.index t1_0 (1 : Fin 2) * 1024 ≤ (i 1).val ∧ (i 1).val < win1_3.index t1_0 (1 : Fin 2) * 1024 + 1024; omega

/-- The result array after the region: the projection of the arrays as the region finds them. -/
theorem final (c : Dev nD) : (dat1 V c).arrAt 3 cfg1.N = lin (V c main_v1) (V c main_arg4) (V c main_arg5) :=
  (dat1 V c).arrAt_eq_of_cover 3 _ (fun t _ => flushed_eq V c t) cover

end Cert.KernelIdeal.PredRegion

end
-- ==== Proof.FusedBody.lean ====
import proofs.«162195_j8847632629854_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
The fused body, read at an index. The body loads a block `e : [1, 24, 1024]` of encoder projections (24 frames of one
batch entry), the block `p : [1, 80, 1024]` of that entry's prediction projections, the vocabulary weight
`w : [1024, 512]` and bias `b : [512]`, and stores, at frame `tt`, label position `u` and vocabulary entry `v`,

  ∑ j, tanh (e 0 tt j + p 0 u j) · w j v + b v.

The body forms the `[24, 80, 1024]` array of sums by repeating `e` along a new middle axis and `p` along a new leading
axis, flattens it to 1920 = 24 · 80 rows (row `tt · 80 + u`), multiplies by `w` into a zero accumulator, and unflattens.
On the extended reals the rounding to bf16 is the identity and the product is the plain sum over the 1024 joint features.
-/

noncomputable section

namespace Cert.KernelIdeal.FusedBody

open Cert.KernelIdeal Cert.KernelIdeal.Gen Idealize.ShloMosaic Idealize.ShloMosaic.ValueIdx

/-- The flattened row of frame `tt` and label position `u`. -/
def row (tt : Fin 24) (u : Fin 80) : Fin 1920 := ⟨tt.val * 80 + u.val, by have := tt.isLt; have := u.isLt; omega⟩

/-- On the row axis, the left operand's index of the product is the output's row. -/
theorem lhs_row (i : S1920x512.Idx) (q : dot_S1920x1024_S1024x512_S1920x512_1_0_0_1_n_n.contr.Idx) : (dot_S1920x1024_S1024x512_S1920x512_1_0_0_1_n_n.lhsIdx i q 0).val = (i 0).val := by
  unfold DotDims.lhsIdx
  rw [dif_neg (show ¬(0 : Fin S1920x1024.rank) ∈ dot_S1920x1024_S1024x512_S1920x512_1_0_0_1_n_n.lhsBatch by decide), dif_pos (show (0 : Fin S1920x1024.rank) ∈ dot_S1920x1024_S1024x512_S1920x512_1_0_0_1_n_n.lhsNonContracting by decide)]
  rfl

/-- On the column axis, the right operand's index of the product is the output's column. -/
theorem rhs_col (i : S1920x512.Idx) (q : dot_S1920x1024_S1024x512_S1920x512_1_0_0_1_n_n.contr.Idx) : (dot_S1920x1024_S1024x512_S1920x512_1_0_0_1_n_n.rhsIdx i q 1).val = (i 1).val := by
  unfold DotDims.rhsIdx
  rw [dif_neg (show ¬(1 : Fin S1024x512.rank) ∈ dot_S1920x1024_S1024x512_S1920x512_1_0_0_1_n_n.rhsBatch by decide), dif_pos (show (1 : Fin S1024x512.rank) ∈ dot_S1920x1024_S1024x512_S1920x512_1_0_0_1_n_n.rhsNonContracting by decide)]
  rfl

/-- The matrix product into a zero accumulator, at row `r` and column `v`: the sum over the 1024 joint features. -/
theorem matmul_apply (l : FVec Ideal S1920x1024 .bf16) (r' : FVec Ideal S1024x512 .bf16) (r : Fin 1920) (v : Fin 512) :
    matmul dot_S1920x1024_S1024x512_S1920x512_1_0_0_1_n_n none l r' (constant S1920x512 .f32 0x00000000#32) (ix2 r v)
      = ∑ j : Fin 1024, l (ix2 r j) * r' (ix2 j v) := by
  simp only [matmul]
  rw [Ideal.matmul_constant_zero_apply, ← Equiv.sum_comp (contrEquiv1 dot_S1920x1024_S1024x512_S1920x512_1_0_0_1_n_n 1024 rfl rfl).symm]
  refine Finset.sum_congr rfl fun k _ => ?_
  have hk := contrEquiv1_symm_val dot_S1920x1024_S1024x512_S1920x512_1_0_0_1_n_n 1024 rfl rfl k
  have el : dot_S1920x1024_S1024x512_S1920x512_1_0_0_1_n_n.lhsIdx (ix2 r v) ((contrEquiv1 dot_S1920x1024_S1024x512_S1920x512_1_0_0_1_n_n 1024 rfl rfl).symm k) = ix2 r k := funext fun a => Fin.ext (by
    match a with
    | ⟨0, _⟩ => exact lhs_row _ _
    | ⟨1, _⟩ => exact (dot_S1920x1024_S1024x512_S1920x512_1_0_0_1_n_n.lhsIdx_val_of_single rfl _ _).trans hk)
  have er : dot_S1920x1024_S1024x512_S1920x512_1_0_0_1_n_n.rhsIdx (ix2 r v) ((contrEquiv1 dot_S1920x1024_S1024x512_S1920x512_1_0_0_1_n_n 1024 rfl rfl).symm k) = ix2 k v := funext fun a => Fin.ext (by
    match a with
    | ⟨0, _⟩ => exact (dot_S1920x1024_S1024x512_S1920x512_1_0_0_1_n_n.rhsIdx_val_of_single rfl _ _).trans hk
    | ⟨1, _⟩ => exact rhs_col _ _)
  rw [el, er]

/-- The encoder block repeated along the label axis, at `(tt, u, j)`: the block at `(0, tt, j)`. -/
theorem enc_apply (e : Vec Ideal S1x24x1024 .f32) (tt : Fin 24) (u : Fin 80) (j : Fin 1024) :
    broadcastTo S24x80x1024 (shapeCast S24x1x1024 (shapeCast S24x1024 e shapeCasts_S1x24x1024_S24x1024) shapeCasts_S24x1024_S24x1x1024)
      broadcasts_S24x1x1024_S24x80x1024 (ix3 tt u j) = e (ix3 (0 : Fin 1) tt j) := by
  refine (broadcastTo_apply _ _ (ix3 tt u j) (ix3 tt (0 : Fin 1) j) fun a => ?_).trans ?_
  · match a with
    | ⟨0, _⟩ => rfl
    | ⟨1, _⟩ => rfl
    | ⟨2, _⟩ => rfl
  refine (shapeCast_apply _ _ (ix3 tt (0 : Fin 1) j) (ix2 tt j) ?_).trans (shapeCast_1ab_ab_apply e _ tt j)
  rw [Shape.rowMajor_val_two, Shape.rowMajor_val_three]
  show tt.val * 1024 + j.val = (tt.val * 1 + 0) * 1024 + j.val
  omega

/-- The prediction block repeated along the frame axis, at `(tt, u, j)`: the block at `(0, u, j)`. -/
theorem pred_apply (p : Vec Ideal S1x80x1024 .f32) (tt : Fin 24) (u : Fin 80) (j : Fin 1024) :
    broadcastTo S24x80x1024 (shapeCast S1x80x1024 (shapeCast S80x1024 p shapeCasts_S1x80x1024_S80x1024) shapeCasts_S80x1024_S1x80x1024)
      broadcasts_S1x80x1024_S24x80x1024 (ix3 tt u j) = p (ix3 (0 : Fin 1) u j) := by
  refine (broadcastTo_apply _ _ (ix3 tt u j) (ix3 (0 : Fin 1) u j) fun a => ?_).trans ?_
  · match a with
    | ⟨0, _⟩ => rfl
    | ⟨1, _⟩ => rfl
    | ⟨2, _⟩ => rfl
  exact (shapeCast_ab_1ab_apply _ _ (0 : Fin 1) u j).trans (shapeCast_1ab_ab_apply p _ u j)

/-- The vocabulary bias repeated over frames and label positions, at `(tt, u, v)`: the bias at `v`. -/
theorem bias_apply (b : Vec Ideal S512 .f32) (tt : Fin 24) (u : Fin 80) (v : Fin 512) :
    broadcastTo S24x80x512 (shapeCast S1x1x512 b shapeCasts_S512_S1x1x512) broadcasts_S1x1x512_S24x80x512 (ix3 tt u v) = b (ix1 v) := by
  refine (broadcastTo_apply _ _ (ix3 tt u v) (ix3 (0 : Fin 1) (0 : Fin 1) v) fun a => ?_).trans ?_
  · match a with
    | ⟨0, _⟩ => rfl
    | ⟨1, _⟩ => rfl
    | ⟨2, _⟩ => rfl
  refine shapeCast_apply _ _ (ix3 (0 : Fin 1) (0 : Fin 1) v) (ix1 v) ?_
  rw [Shape.rowMajor_val_one, Shape.rowMajor_val_three]
  show v.val = (0 * 1 + 0) * 512 + v.val
  omega

/-- Flattening `[24, 80, 1024]` to `[1920, 1024]`: row `tt · 80 + u` is the entry `(tt, u)`. -/
theorem flatten_apply {α : Type} (s : S24x80x1024.Idx → α) (tt : Fin 24) (u : Fin 80) (j : Fin 1024) :
    shapeCast S1920x1024 s shapeCasts_S24x80x1024_S1920x1024 (ix2 (row tt u) j) = s (ix3 tt u j) := by
  refine shapeCast_apply _ _ (ix2 (row tt u) j) (ix3 tt u j) ?_
  rw [Shape.rowMajor_val_two, Shape.rowMajor_val_three]
  rfl

/-- Unflattening `[1920, 512]` to `[24, 80, 512]`: the entry `(tt, u)` is row `tt · 80 + u`. -/
theorem unflatten_apply {α : Type} (s : S1920x512.Idx → α) (tt : Fin 24) (u : Fin 80) (v : Fin 512) :
    shapeCast S24x80x512 s shapeCasts_S1920x512_S24x80x512 (ix3 tt u v) = s (ix2 (row tt u) v) := by
  refine shapeCast_apply _ _ (ix3 tt u v) (ix2 (row tt u) v) ?_
  rw [Shape.rowMajor_val_two, Shape.rowMajor_val_three]
  rfl

/-- What the body stores, at `(z, tt, u, v)` (the block's leading axis has one entry). -/
theorem pay_apply (e : Vec Ideal S1x24x1024 .f32) (p : Vec Ideal S1x80x1024 .f32) (w : Vec Ideal S1024x512 .f32) (b : Vec Ideal S512 .f32)
    (z : Fin 1) (tt : Fin 24) (u : Fin 80) (v : Fin 512) :
    k2_pay1 e p w b (ix4 z tt u v)
      = (∑ j : Fin 1024, Ideal.tanh (e (ix3 (0 : Fin 1) tt j) + p (ix3 (0 : Fin 1) u j)) * w (ix2 j v)) + b (ix1 v) := by
  unfold k2_pay1
  refine (shapeCast_abc_1abc_apply _ _ z tt u v).trans ?_
  refine (addf_apply _ _ _).trans ?_
  refine congrArg₂ (· + ·) ?_ (bias_apply b tt u v)
  refine (unflatten_apply _ tt u v).trans ?_
  refine (matmul_apply _ _ (row tt u) v).trans ?_
  refine Finset.sum_congr rfl fun j _ => ?_
  refine congrArg₂ (· * ·) ?_ rfl
  refine (flatten_apply _ tt u j).trans ?_
  show Ideal.tanh (_ + _) = _
  rw [enc_apply e tt u j, pred_apply p tt u j]

end Cert.KernelIdeal.FusedBody

end
-- ==== Proof.FusedRegion.lean ====
import proofs.«162195_j8847632629854_1_alg».proof.Proof.Gen.KernelIdeal.Frame
import proofs.«162195_j8847632629854_1_alg».proof.Proof.FusedBody
import Idealize.ShloMosaic.Lib.Pipeline.Value

/-!
The fused region, from its blocks to its whole result array. The grid has 4 × 10 points `(b, tb)`: batch entry `b` and
a tile of 24 consecutive frames `tb · 24 … tb · 24 + 23`. At a point the encoder-projection window holds frames of
that tile of entry `b` (block index `(b, tb, 0)` of `[4, 240, 1024]`), the prediction-projection window all 80 label
positions of entry `b` (block index `(b, 0, 0)` of `[4, 80, 1024]`), the weight and bias windows the whole arrays, and the
result window the block `(b, tb, 0, 0)` of `[4, 240, 80, 512]`. So the point writes back, at array index
`(b, t, u, v)` with `t = tb · 24 + tt`,

  ∑ j, tanh (E b t j + P b u j) · W j v + B v,

the blocks tile the result array (frame `t` lies in tile `t / 24`), and the array ends as that function.
-/

noncomputable section

namespace Cert.KernelIdeal.FusedRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The logits from the two projection arrays, the vocabulary weight and its bias. -/
def fused (E : S4x240x1024.Idx → EReal) (P : S4x80x1024.Idx → EReal) (W : S1024x512.Idx → EReal) (B : S512.Idx → EReal) :
    S4x240x80x512.Idx → EReal :=
  fun i => (∑ j : Fin 1024, Ideal.tanh (E (ix3 (i 0) (i 1) j) + P (ix3 (i 0) (i 2) j)) * W (ix2 j (i 3))) + B (ix1 (i 3))

theorem fused_ix4 (E : S4x240x1024.Idx → EReal) (P : S4x80x1024.Idx → EReal) (W : S1024x512.Idx → EReal) (B : S512.Idx → EReal)
    (b : Fin 4) (t : Fin 240) (u : Fin 80) (v : Fin 512) :
    fused E P W B (ix4 b t u v) = (∑ j : Fin 1024, Ideal.tanh (E (ix3 b t j) + P (ix3 b u j)) * W (ix2 j v)) + B (ix1 v) := rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The body's stored value at block index `y` is the logit at array index `i`, when the encoder block's frame `y 1` is
    the array's frame `i 1` of entry `i 0`, the prediction block's position `y 2` is the array's position `i 2` of that
    entry, the weight and bias blocks are the whole arrays, and the vocabulary coordinate is the same. -/
theorem block_eq (E : S4x240x1024.Idx → EReal) (P : S4x80x1024.Idx → EReal) (W : S1024x512.Idx → EReal) (B : S512.Idx → EReal)
    (e : Vec Ideal S1x24x1024 .f32) (p : Vec Ideal S1x80x1024 .f32) (w : Vec Ideal S1024x512 .f32) (b : Vec Ideal S512 .f32)
    (hw : w = W) (hb : b = B) (y : S1x24x80x512.Idx) (i : S4x240x80x512.Idx)
    (he : ∀ j : Fin 1024, e (ix3 (0 : Fin 1) (y 1) j) = E (ix3 (i 0) (i 1) j))
    (hp : ∀ j : Fin 1024, p (ix3 (0 : Fin 1) (y 2) j) = P (ix3 (i 0) (i 2) j))
    (h3 : (i 3).val = (y 3).val) :
    k2_pay1 e p w b y = fused E P W B i := by
  subst hw hb
  obtain ⟨z, tt, u, v, rfl⟩ : ∃ (z : Fin 1) (tt : Fin 24) (u : Fin 80) (v : Fin 512), y = ix4 z tt u v := ⟨y 0, y 1, y 2, y 3, eq_ix4 y⟩
  have he' : ∀ j : Fin 1024, e (ix3 (0 : Fin 1) tt j) = E (ix3 (i 0) (i 1) j) := he
  have hp' : ∀ j : Fin 1024, p (ix3 (0 : Fin 1) u j) = P (ix3 (i 0) (i 2) j) := hp
  have h3' : v = i 3 := Fin.ext h3.symm
  refine (FusedBody.pay_apply e p w b z tt u v).trans ?_
  unfold fused
  refine congrArg₂ (· + ·) (Finset.sum_congr rfl fun j _ => congrArg₂ (· * ·) ?_ ?_) ?_
  · rw [he' j, hp' j]
  · rw [h3']
  · rw [h3']

/-- The printed index maps over the 40 grid points: the two projection windows follow the result window's batch and
    tile indices, everything else is zero, and the result's indices stay in range. -/
theorem idx_facts : ∀ t : Fin cfg2.N,
    win2_0.index t (0 : Fin 3) = win2_4.index t (0 : Fin 4) ∧ win2_0.index t (1 : Fin 3) = win2_4.index t (1 : Fin 4) ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0
    ∧ win2_4.index t (2 : Fin 4) = 0 ∧ win2_4.index t (3 : Fin 4) = 0
    ∧ win2_4.index t (0 : Fin 4) ≤ 3 ∧ win2_4.index t (1 : Fin 4) ≤ 9 :=
  (by decide +kernel : ∀ t : Fin grid2.N, _)

/-- Every batch entry and frame tile is some grid point's. -/
theorem idx_onto : ∀ (q0 : Fin 4) (q1 : Fin 10), ∃ t : Fin cfg2.N, win2_4.index t = ![q0.val, q1.val, 0, 0] :=
  (by decide +kernel : ∀ (q0 : Fin 4) (q1 : Fin 10), ∃ t : Fin grid2.N, win2_4.index t = ![q0.val, q1.val, 0, 0])

/-- The weight window's block is the whole weight. -/
theorem blk_w (c : Dev nD) (t : Fin cfg2.N) : iblk2 V c 2 t = V c main_arg6 := by
  obtain ⟨-, -, -, -, -, -, e6, e7, -⟩ := idx_facts t
  funext y
  show V c main_arg6 (((cfg2.win 2).blk t).view.emb y) = V c main_arg6 y
  refine congrArg _ (funext fun a => Fin.ext ?_)
  match a with
  | ⟨0, _⟩ => show win2_2.index t (0 : Fin 2) * 1024 + 1 * (y 0).val = (y 0).val; omega
  | ⟨1, _⟩ => show win2_2.index t (1 : Fin 2) * 512 + 1 * (y 1).val = (y 1).val; omega

/-- The bias window's block is the whole bias. -/
theorem blk_b (c : Dev nD) (t : Fin cfg2.N) : iblk2 V c 3 t = V c main_arg7 := by
  obtain ⟨-, -, -, -, -, -, -, -, e8, -⟩ := idx_facts t
  funext y
  show V c main_arg7 (((cfg2.win 3).blk t).view.emb y) = V c main_arg7 y
  refine congrArg _ (funext fun a => Fin.ext ?_)
  match a with
  | ⟨0, _⟩ => show win2_3.index t (0 : Fin 1) * 512 + 1 * (y 0).val = (y 0).val; omega

/-- What grid point `t` writes back is its block of the logits of the arrays as the region finds them. -/
theorem flushed_eq (c : Dev nD) (t : Fin cfg2.N) :
    (dat2 V c).flushed 4 t = ((cfg2.win 4).blk t).view.read (Elt Ideal) (fused (V c main_v4) (V c main_v5) (V c main_arg6) (V c main_arg7)) := by
  show (cfg2.win 4).cut (grid2.coords t) ((dat2 V c).after 4 t) = _
  rw [after2_4]
  unfold out2_4
  rw [View.canon_unit_zero hz4]
  simp only [View.ld_unit_zero (S := S1x24x1024) hz3, View.ld_unit_zero (S := S1x80x1024) hz3, View.ld_unit_zero (S := S1024x512) hz2, View.ld_unit_zero (S := S512) hz1]
  obtain ⟨e0, e1, e2, e3, e4, e5, -, -, -, e9, e10, -, -⟩ := idx_facts t
  funext y
  have hy0 : (y 0).val < 1 := (y 0).isLt
  refine block_eq _ _ _ _ _ _ _ _ (blk_w V c t) (blk_b V c t) y (((cfg2.win 4).blk t).view.emb y) ?_ ?_ ?_
  · intro j
    show V c main_v4 (((cfg2.win 0).blk t).view.emb (ix3 (0 : Fin 1) (y 1) j)) = V c main_v4 (ix3 ((((cfg2.win 4).blk t).view.emb y) 0) ((((cfg2.win 4).blk t).view.emb y) 1) j)
    refine congrArg _ (funext fun a => Fin.ext ?_)
    match a with
    | ⟨0, _⟩ => show win2_0.index t (0 : Fin 3) * 1 + 1 * 0 = win2_4.index t (0 : Fin 4) * 1 + 1 * (y 0).val; omega
    | ⟨1, _⟩ => show win2_0.index t (1 : Fin 3) * 24 + 1 * (y 1).val = win2_4.index t (1 : Fin 4) * 24 + 1 * (y 1).val; omega
    | ⟨2, _⟩ => show win2_0.index t (2 : Fin 3) * 1024 + 1 * j.val = j.val; omega
  · intro j
    show V c main_v5 (((cfg2.win 1).blk t).view.emb (ix3 (0 : Fin 1) (y 2) j)) = V c main_v5 (ix3 ((((cfg2.win 4).blk t).view.emb y) 0) ((((cfg2.win 4).blk t).view.emb y) 2) j)
    refine congrArg _ (funext fun a => Fin.ext ?_)
    match a with
    | ⟨0, _⟩ => show win2_1.index t (0 : Fin 3) * 1 + 1 * 0 = win2_4.index t (0 : Fin 4) * 1 + 1 * (y 0).val; omega
    | ⟨1, _⟩ => show win2_1.index t (1 : Fin 3) * 80 + 1 * (y 2).val = win2_4.index t (2 : Fin 4) * 80 + 1 * (y 2).val; omega
    | ⟨2, _⟩ => show win2_1.index t (2 : Fin 3) * 1024 + 1 * j.val = j.val; omega
  · show win2_4.index t (3 : Fin 4) * 512 + 1 * (y 3).val = (y 3).val; omega

/-- An index of the result array is in point `t`'s block iff each coordinate is in the block's range on its axis. -/
theorem mem_blk (t : Fin cfg2.N) (i : S4x240x80x512.Idx) :
    i ∈ ((cfg2.win 4).blk t).view.set ↔ ∀ a : Fin 4, win2_4.index t a * S1x24x80x512.size a ≤ (i a).val ∧ (i a).val < win2_4.index t a * S1x24x80x512.size a + S1x24x80x512.size a := by
  show i ∈ ((View.whole main_v6).slice (win2_4.rect t)).set ↔ _
  rw [View.set_slice_whole, Rect.mem_set_unit]
  exact Iff.rfl

/-- The blocks tile the result array: index `(b, t, u, v)` lies in the block of point `(b, t / 24)`. -/
theorem cover (i : S4x240x80x512.Idx) : ∃ t : Fin cfg2.N, (cfg2.win 4).flush t = true ∧ i ∈ ((cfg2.win 4).blk t).view.set := by
  have h0 : (i 0).val < 4 := (i 0).isLt
  have h1 : (i 1).val < 240 := (i 1).isLt
  have h2 : (i 2).val < 80 := (i 2).isLt
  have h3 : (i 3).val < 512 := (i 3).isLt
  obtain ⟨t, ht⟩ := idx_onto ⟨(i 0).val, h0⟩ ⟨(i 1).val / 24, by omega⟩
  have q0 : win2_4.index t (0 : Fin 4) = (i 0).val := congrFun ht 0
  have q1 : win2_4.index t (1 : Fin 4) = (i 1).val / 24 := congrFun ht 1
  have q2 : win2_4.index t (2 : Fin 4) = 0 := congrFun ht 2
  have q3 : win2_4.index t (3 : Fin 4) = 0 := congrFun ht 3
  refine ⟨t, flush2_4 t, ?_⟩
  rw [mem_blk]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 24 ≤ (i 1).val ∧ (i 1).val < win2_4.index t (1 : Fin 4) * 24 + 24; omega
  | ⟨2, _⟩ => show win2_4.index t (2 : Fin 4) * 80 ≤ (i 2).val ∧ (i 2).val < win2_4.index t (2 : Fin 4) * 80 + 80; omega
  | ⟨3, _⟩ => show win2_4.index t (3 : Fin 4) * 512 ≤ (i 3).val ∧ (i 3).val < win2_4.index t (3 : Fin 4) * 512 + 512; omega

/-- The result array after the region: the logits of the arrays as the region finds them. -/
theorem final (c : Dev nD) : (dat2 V c).arrAt 4 cfg2.N = fused (V c main_v4) (V c main_v5) (V c main_arg6) (V c main_arg7) :=
  (dat2 V c).arrAt_eq_of_cover 4 _ (fun t _ => flushed_eq V c t) cover

end Cert.KernelIdeal.FusedRegion

end
-- ==== Proof.Compose.lean ====
import proofs.«162195_j8847632629854_1_alg».proof.Proof.EncRegion
import proofs.«162195_j8847632629854_1_alg».proof.Proof.PredRegion
import proofs.«162195_j8847632629854_1_alg».proof.Proof.FusedRegion
import proofs.«162195_j8847632629854_1_alg».proof.Proof.JointSpec

/-!
The three regions composed. The program reshapes the encoder output `[4, 240, 640]` to 960 = 4 · 240 rows and the
prediction output `[4, 80, 640]` to 320 = 4 · 80 rows, projects each, reshapes the projections back to
`[4, 240, 1024]` and `[4, 80, 1024]`, and feeds them to the fused region. A reshape keeps the row-major position, so
row `b · 240 + t` of the flat encoder array is entry `(b, t)` (and row `b · 80 + u` of the flat prediction array is
entry `(b, u)`); with that the composition is the specification's logits, entry by entry.
-/

noncomputable section

namespace Cert.KernelIdeal.Compose

open Cert.KernelIdeal Cert.KernelIdeal.Gen Idealize.ShloMosaic Idealize.ShloMosaic.ValueIdx Cert.JointSpec

/-- The flat row of batch entry `b` and frame `t`. -/
def encRow (b : Fin 4) (t : Fin 240) : Fin 960 := ⟨b.val * 240 + t.val, by have := b.isLt; have := t.isLt; omega⟩
/-- The flat row of batch entry `b` and label position `u`. -/
def predRow (b : Fin 4) (u : Fin 80) : Fin 320 := ⟨b.val * 80 + u.val, by have := b.isLt; have := u.isLt; omega⟩

/-- The encoder projection, computed on the flat array and reshaped back, at `(b, t, j)`. -/
theorem enc_entry (x : S4x240x640.Idx → EReal) (we : S640x1024.Idx → EReal) (be : S1024.Idx → EReal) (b : Fin 4) (t : Fin 240) (j : Fin 1024) :
    shapeCast S4x240x1024 (EncRegion.lin (shapeCast S960x640 x shapeCasts_S4x240x640_S960x640) we be) shapeCasts_S960x1024_S4x240x1024 (ix3 b t j)
      = encAt x we be b t j := by
  refine (shapeCast_apply _ _ (ix3 b t j) (ix2 (encRow b t) j) ?_).trans ?_
  · rw [Shape.rowMajor_val_two, Shape.rowMajor_val_three]; rfl
  rw [EncRegion.lin_ix2]
  unfold encAt
  refine congrArg₂ (· + ·) (Finset.sum_congr rfl fun k _ => congrArg₂ (· * ·) ?_ rfl) rfl
  refine shapeCast_apply _ _ (ix2 (encRow b t) k) (ix3 b t k) ?_
  rw [Shape.rowMajor_val_two, Shape.rowMajor_val_three]; rfl

/-- The prediction projection, computed on the flat array and reshaped back, at `(b, u, j)`. -/
theorem pred_entry (y : S4x80x640.Idx → EReal) (wp : S640x1024.Idx → EReal) (bp : S1024.Idx → EReal) (b : Fin 4) (u : Fin 80) (j : Fin 1024) :
    shapeCast S4x80x1024 (PredRegion.lin (shapeCast S320x640 y shapeCasts_S4x80x640_S320x640) wp bp) shapeCasts_S320x1024_S4x80x1024 (ix3 b u j)
      = predAt y wp bp b u j := by
  refine (shapeCast_apply _ _ (ix3 b u j) (ix2 (predRow b u) j) ?_).trans ?_
  · rw [Shape.rowMajor_val_two, Shape.rowMajor_val_three]; rfl
  rw [PredRegion.lin_ix2]
  unfold predAt
  refine congrArg₂ (· + ·) (Finset.sum_congr rfl fun k _ => congrArg₂ (· * ·) ?_ rfl) rfl
  refine shapeCast_apply _ _ (ix2 (predRow b u) k) (ix3 b u k) ?_
  rw [Shape.rowMajor_val_two, Shape.rowMajor_val_three]; rfl

/-- The fused region on the two reshaped projections of the reshaped inputs is the specification's logits. -/
theorem composed (x : S4x240x640.Idx → EReal) (y : S4x80x640.Idx → EReal) (we : S640x1024.Idx → EReal) (be : S1024.Idx → EReal)
    (wp : S640x1024.Idx → EReal) (bp : S1024.Idx → EReal) (wo : S1024x512.Idx → EReal) (bo : S512.Idx → EReal) :
    FusedRegion.fused
        (shapeCast S4x240x1024 (EncRegion.lin (shapeCast S960x640 x shapeCasts_S4x240x640_S960x640) we be) shapeCasts_S960x1024_S4x240x1024)
        (shapeCast S4x80x1024 (PredRegion.lin (shapeCast S320x640 y shapeCasts_S4x80x640_S320x640) wp bp) shapeCasts_S320x1024_S4x80x1024)
        wo bo
      = logits x y we be wp bp wo bo := by
  funext i
  obtain ⟨b, t, u, v, rfl⟩ : ∃ (b : Fin 4) (t : Fin 240) (u : Fin 80) (v : Fin 512), i = ix4 b t u v :=
    ⟨i 0, i 1, i 2, i 3, eq_ix4 i⟩
  rw [FusedRegion.fused_ix4, logits_ix4]
  unfold logitAt
  refine congrArg₂ (· + ·) (Finset.sum_congr rfl fun j _ => congrArg₂ (· * ·) ?_ rfl) rfl
  rw [enc_entry, pred_entry]

end Cert.KernelIdeal.Compose

end
-- ==== Proof.Fold.lean ====
import proofs.«162195_j8847632629854_1_alg».proof.Proof.Gen.KernelIdeal.Frame
import proofs.«162195_j8847632629854_1_alg».proof.Proof.Compose
import Idealize.ShloMosaic.Lib.StableHlo.Run

/-!
The result buffer at the end of the program, read back to the launch memory. The program's segments are: two
reshapes of the inputs, the encoder projection's region, the prediction projection's region, two reshapes of the
projections, and the fused region. The buffer contents at each boundary are a fold through these; here each buffer the
next segment reads is read back one boundary at a time: a reshape's result is the reshape of its operand, a region's
result array is the region's function of the arrays it found, and a buffer a segment does not write is what it was.
-/

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first two reshapes -/

theorem W1_v0 (c : Dev nD) : W1 m ρ c (Proc.devRef .tc main_v0)
    = shapeCast S960x640 (m ((c : Thread nD τ).loc main_arg0)) shapeCasts_S4x240x640_S960x640 := by
  show StableHlo.after hostOps0 (W0 m ρ c) (Proc.devRef .tc main_v0) = _
  after_results
  rfl

theorem W1_v1 (c : Dev nD) : W1 m ρ c (Proc.devRef .tc main_v1)
    = shapeCast S320x640 (m ((c : Thread nD τ).loc main_arg1)) shapeCasts_S4x80x640_S320x640 := by
  show StableHlo.after hostOps0 (W0 m ρ c) (Proc.devRef .tc main_v1) = _
  after_results
  rfl

/-- A buffer the first two reshapes do not write is as launched. -/
theorem W1_keep (c : Dev nD) (b : Ref sig .tc) (h0 : b ≠ main_v0) (h1 : b ≠ main_v1) :
    W1 m ρ c (Proc.devRef .tc b) = m ((c : Thread nD τ).loc b) := by
  show StableHlo.after hostOps0 (W0 m ρ c) (Proc.devRef .tc b) = _
  simp only [after_cons, after_nil]
  rw [reshape_result_ne (h := h1), reshape_result_ne (h := h0)]

/-! ## After the encoder projection's region -/

theorem W2_v2 (c : Dev nD) : W2 m ρ c (Proc.devRef .tc main_v2)
    = EncRegion.lin (shapeCast S960x640 (m ((c : Thread nD τ).loc main_arg0)) shapeCasts_S4x240x640_S960x640)
        (m ((c : Thread nD τ).loc main_arg2)) (m ((c : Thread nD τ).loc main_arg3)) := by
  refine (W2_arr m ρ c 3).trans ?_
  rw [EncRegion.final (V1 m ρ) c]
  show EncRegion.lin (W1 m ρ c (Proc.devRef .tc main_v0)) (W1 m ρ c (Proc.devRef .tc main_arg2)) (W1 m ρ c (Proc.devRef .tc main_arg3)) = _
  rw [W1_v0, W1_keep m ρ c main_arg2 (by decide) (by decide), W1_keep m ρ c main_arg3 (by decide) (by decide)]

/-! ## After the prediction projection's region -/

theorem W3_v3 (c : Dev nD) : W3 m ρ c (Proc.devRef .tc main_v3)
    = PredRegion.lin (shapeCast S320x640 (m ((c : Thread nD τ).loc main_arg1)) shapeCasts_S4x80x640_S320x640)
        (m ((c : Thread nD τ).loc main_arg4)) (m ((c : Thread nD τ).loc main_arg5)) := by
  refine (W3_arr m ρ c 3).trans ?_
  rw [PredRegion.final (V2 m ρ) c]
  show PredRegion.lin (W2 m ρ c (Proc.devRef .tc main_v1)) (W2 m ρ c (Proc.devRef .tc main_arg4)) (W2 m ρ c (Proc.devRef .tc main_arg5)) = _
  rw [W2_of_ne m ρ c main_v1 (by decide), W2_of_ne m ρ c main_arg4 (by decide), W2_of_ne m ρ c main_arg5 (by decide),
    W1_v1, W1_keep m ρ c main_arg4 (by decide) (by decide), W1_keep m ρ c main_arg5 (by decide) (by decide)]

theorem W3_v2 (c : Dev nD) : W3 m ρ c (Proc.devRef .tc main_v2) = W2 m ρ c (Proc.devRef .tc main_v2) :=
  W3_of_ne m ρ c main_v2 (by decide)

/-- An argument buffer neither projection region touches is, after both, as launched. -/
theorem W3_keep (c : Dev nD) (b : Ref sig .tc) (h0 : b ≠ main_v0) (h1 : b ≠ main_v1)
    (hr0 : ∀ w, Pipeline.arrRef spec0 w ≠ b) (hr1 : ∀ w, Pipeline.arrRef spec1 w ≠ b) :
    W3 m ρ c (Proc.devRef .tc b) = m ((c : Thread nD τ).loc b) := by
  rw [W3_of_ne m ρ c b hr1, W2_of_ne m ρ c b hr0, W1_keep m ρ c b h0 h1]

/-! ## After the second two reshapes -/

theorem W4_v4 (c : Dev nD) : W4 m ρ c (Proc.devRef .tc main_v4)
    = shapeCast S4x240x1024 (W3 m ρ c (Proc.devRef .tc main_v2)) shapeCasts_S960x1024_S4x240x1024 := by
  show StableHlo.after hostOps2 (W3 m ρ c) (Proc.devRef .tc main_v4) = _
  generalize W3 m ρ c = Z
  after_results
  rfl

theorem W4_v5 (c : Dev nD) : W4 m ρ c (Proc.devRef .tc main_v5)
    = shapeCast S4x80x1024 (W3 m ρ c (Proc.devRef .tc main_v3)) shapeCasts_S320x1024_S4x80x1024 := by
  show StableHlo.after hostOps2 (W3 m ρ c) (Proc.devRef .tc main_v5) = _
  generalize W3 m ρ c = Z
  after_results
  rfl

/-- A buffer the second two reshapes do not write is what it was. -/
theorem W4_keep (c : Dev nD) (b : Ref sig .tc) (h4 : b ≠ main_v4) (h5 : b ≠ main_v5) :
    W4 m ρ c (Proc.devRef .tc b) = W3 m ρ c (Proc.devRef .tc b) := by
  show StableHlo.after hostOps2 (W3 m ρ c) (Proc.devRef .tc b) = _
  generalize W3 m ρ c = Z
  simp only [after_cons, after_nil]
  rw [reshape_result_ne (h := h5), reshape_result_ne (h := h4)]

/-! ## After the fused region: the result -/

/-- The result buffer ends at the specification's logits of the launch memory's argument arrays. -/
theorem W5_v6 (c : Dev nD) : W5 m ρ c (Proc.devRef .tc main_v6)
    = Cert.JointSpec.logits (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W5_arr m ρ c 4).trans ?_
  rw [FusedRegion.final (V4 m ρ) c]
  show FusedRegion.fused (W4 m ρ c (Proc.devRef .tc main_v4)) (W4 m ρ c (Proc.devRef .tc main_v5))
    (W4 m ρ c (Proc.devRef .tc main_arg6)) (W4 m ρ c (Proc.devRef .tc main_arg7)) = _
  rw [W4_v4, W4_v5, W3_v2, W2_v2, W3_v3,
    W4_keep m ρ c main_arg6 (by decide) (by decide), W4_keep m ρ c main_arg7 (by decide) (by decide),
    W3_keep m ρ c main_arg6 (by decide) (by decide) (by decide) (by decide),
    W3_keep m ρ c main_arg7 (by decide) (by decide) (by decide) (by decide)]
  exact Compose.composed _ _ _ _ _ _ _ _

end Cert.KernelIdeal.Fold

end
-- ==== Proof.KernelRun.lean ====
import proofs.«162195_j8847632629854_1_alg».proof.Proof.Gen.KernelIdeal.Frame
import proofs.«162195_j8847632629854_1_alg».proof.Proof.Fold

/-!
The idealized kernel's run with its result named. Every weakly fair execution of the program terminates without a
fault; in every final state each unscoped buffer holds the last boundary's contents, so the result buffer holds the
specification's logits of the launch memory's argument arrays (the fold read back), and the arguments are as launched.
-/

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: termination, no fault, the result buffer at the logits of the arguments, the arguments unchanged. -/
theorem run : θ_run defs (onTc (τ := τ) (main (F := Ideal))) ⟨m, fun _ => 0, ρ⟩ (fun r => ∀ c : Dev nD,
      r.2.mem ((c.tc : Thread nD τ).loc main_v6) = Cert.JointSpec.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v6 (by decide))).trans (Fold.W5_v6 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Result

end
-- ==== Proof.lean ====
/-
  The idealized kernel and the idealized reference compute the same logits on the extended reals.

  Both programs take the encoder output `x : [4, 240, 640]`, the prediction output `y : [4, 80, 640]`, two projections
  `(we, be)`, `(wp, bp)` to 1024 joint features, and the vocabulary projection `(wo, bo)` to 512 entries, and return

    logits b t u v = ∑ j, tanh (e b t j + p b u j) · wo j v + bo v,   e = x · we + be,   p = y · wp + bp.

  The reference states this directly: three contractions, three biases repeated over the other axes, one `tanh`. The
  kernel computes it in three regions: the two projections on the inputs reshaped to 960 and 320 rows, each in one block
  (operands rounded to bf16, which is the identity on the extended reals, and accumulated from zero), and a fused region
  over a 4 × 10 grid of batch entries and tiles of 24 frames that forms the sums `e + p`, applies `tanh`, and multiplies by
  `wo` on rows flattened to 24 · 80. Each side is shown equal to the one term `Cert.JointSpec.logits` of the argument arrays:
  the same sums over the same index sets, so nothing about the extended reals is used beyond `0 + a = a`, and the
  finiteness of the inputs is not needed. The idealization rewrote no operation, so that claim is trivial; the three frame
  claims are the programs' runs with the result dropped.
-/
import proofs.«162195_j8847632629854_1_alg».proof.Defs
import proofs.«162195_j8847632629854_1_alg».proof.Proof.Gen.Kernel
import proofs.«162195_j8847632629854_1_alg».proof.Proof.Gen.Kernel.Frame
import proofs.«162195_j8847632629854_1_alg».proof.Proof.Gen.KernelIdeal
import proofs.«162195_j8847632629854_1_alg».proof.Proof.Gen.KernelIdeal.Frame
import proofs.«162195_j8847632629854_1_alg».proof.Proof.Gen.ReferenceIdeal
import proofs.«162195_j8847632629854_1_alg».proof.Proof.Gen.ReferenceIdeal.Run
import proofs.«162195_j8847632629854_1_alg».proof.Proof.Gen.ReferenceIdeal.Read
import proofs.«162195_j8847632629854_1_alg».proof.Proof.Gen.Pre_finite_inputs
import proofs.«162195_j8847632629854_1_alg».proof.Proof.RefIsSpec
import proofs.«162195_j8847632629854_1_alg».proof.Proof.KernelRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the result at the specification's logits
    of the kernel's argument arrays: the kernel by its run read back through its three regions, the reference by its
    run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.IsSpec.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
